-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S32x64 .f32) (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x32 .f32) (main_arg7 : FVec F S32 .f32) (main_arg8 : FVec F S32x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) (main_arg8 : FVec F S32x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S20000x64 : Shape := ⟨2, ![20000, 64]⟩
abbrev S1700000x64 : Shape := ⟨2, ![1700000, 64]⟩
abbrev S1x64 : Shape := ⟨2, ![1, 64]⟩
abbrev S100000x32 : Shape := ⟨2, ![100000, 32]⟩
abbrev S20000x32 : Shape := ⟨2, ![20000, 32]⟩
abbrev S1700000x32 : Shape := ⟨2, ![1700000, 32]⟩
abbrev S1x32 : Shape := ⟨2, ![1, 32]⟩

abbrev nBuf : Space → Nat
  | .hbm => 165
  | .vmem => 60
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S1x1600000, .i32⟩
  | 15 => ⟨S1600000, .i32⟩
  | 16 => ⟨S100000, .i32⟩
  | 17 => ⟨S1700000, .i32⟩
  | 18 => ⟨S1x1600000, .i32⟩
  | 19 => ⟨S1600000, .i32⟩
  | 20 => ⟨S100000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x32, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x32, .f32⟩
  | 99 => ⟨S1700000x1, .f32⟩
  | 100 => ⟨S1700000x32, .f32⟩
  | 101 => ⟨S1700000x32, .f32⟩
  | 102 => ⟨S_, .f32⟩
  | 103 => ⟨S100000x32, .f32⟩
  | 104 => ⟨S1700000x1, .i32⟩
  | 105 => ⟨S100000x32, .f32⟩
  | 106 => ⟨S1x32, .f32⟩
  | 107 => ⟨S100000x32, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64, .f32⟩
  | 17 => ⟨S100000x64, .f32⟩
  | 18 => ⟨S100000x64, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x64, .f32⟩
  | 28 => ⟨S1700000x1, .f32⟩
  | 29 => ⟨S1700000x64, .f32⟩
  | 30 => ⟨S1700000x64, .f32⟩
  | 31 => ⟨S_, .f32⟩
  | 32 => ⟨S100000x64, .f32⟩
  | 33 => ⟨S1700000x1, .i32⟩
  | 34 => ⟨S100000x64, .f32⟩
  | 35 => ⟨S1x64, .f32⟩
  | 36 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S64x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S1x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S20000x64, .f32⟩
  | .local _ .vmem, ⟨22, _⟩ => ⟨S64x32, .f32⟩
  | .local _ .vmem, ⟨23, _⟩ => ⟨S20000x32, .f32⟩
  | .local _ .vmem, ⟨24, _⟩ => ⟨S20000x32, .f32⟩
  | .local _ .vmem, ⟨25, _⟩ => ⟨S20000x32, .f32⟩
  | .local _ .vmem, ⟨26, _⟩ => ⟨S20000x32, .f32⟩
  | .local _ .vmem, ⟨27, _⟩ => ⟨S1x32, .f32⟩
  | .local _ .vmem, ⟨28, _⟩ => ⟨S20000x32, .f32⟩
  | .local _ .vmem, ⟨29, _⟩ => ⟨S20000x32, .f32⟩
  | .local _ .vmem, ⟨30, _⟩ => ⟨S20000x32, .f32⟩
  | .local _ .vmem, ⟨31, _⟩ => ⟨S20000x32, .f32⟩
  | .local _ .vmem, ⟨32, _⟩ => ⟨S32x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | .local _ .vmem, ⟨36, _⟩ => ⟨S20000x64, .f32⟩
  | .local _ .vmem, ⟨37, _⟩ => ⟨S1x64, .f32⟩
  | .local _ .vmem, ⟨38, _⟩ => ⟨S20000x64, .f32⟩
  | .local _ .vmem, ⟨39, _⟩ => ⟨S20000x64, .f32⟩
  | .local _ .vmem, ⟨40, _⟩ => ⟨S20000x64, .f32⟩
  | .local _ .vmem, ⟨41, _⟩ => ⟨S20000x64, .f32⟩
  | .local _ .vmem, ⟨42, _⟩ => ⟨S64x64, .f32⟩
  | .local _ .vmem, ⟨43, _⟩ => ⟨S20000x64, .f32⟩
  | .local _ .vmem, ⟨44, _⟩ => ⟨S20000x64, .f32⟩
  | .local _ .vmem, ⟨45, _⟩ => ⟨S20000x64, .f32⟩
  | .local _ .vmem, ⟨46, _⟩ => ⟨S20000x64, .f32⟩
  | .local _ .vmem, ⟨47, _⟩ => ⟨S1x64, .f32⟩
  | .local _ .vmem, ⟨48, _⟩ => ⟨S20000x64, .f32⟩
  | .local _ .vmem, ⟨49, _⟩ => ⟨S20000x64, .f32⟩
  | .local _ .vmem, ⟨50, _⟩ => ⟨S20000x64, .f32⟩
  | .local _ .vmem, ⟨51, _⟩ => ⟨S20000x64, .f32⟩
  | .local _ .vmem, ⟨52, _⟩ => ⟨S64x64, .f32⟩
  | .local _ .vmem, ⟨53, _⟩ => ⟨S20000x64, .f32⟩
  | .local _ .vmem, ⟨54, _⟩ => ⟨S20000x64, .f32⟩
  | .local _ .vmem, ⟨55, _⟩ => ⟨S20000x64, .f32⟩
  | .local _ .vmem, ⟨56, _⟩ => ⟨S20000x64, .f32⟩
  | .local _ .vmem, ⟨57, _⟩ => ⟨S1x64, .f32⟩
  | .local _ .vmem, ⟨58, _⟩ => ⟨S20000x64, .f32⟩
  | .local _ .vmem, ⟨59, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_v79 : Ref sig .tc := ⟨.hbm, 110, rfl⟩
abbrev main_v80 : Ref sig .tc := ⟨.hbm, 111, rfl⟩
abbrev main_c_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_17 : Ref sig .tc := ⟨.hbm, 128, rfl⟩
abbrev main_v95 : Ref sig .tc := ⟨.hbm, 129, rfl⟩
abbrev main_v96 : Ref sig .tc := ⟨.hbm, 130, rfl⟩
abbrev main_c_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_19 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_20 : Ref sig .tc := ⟨.hbm, 147, rfl⟩
abbrev main_v111 : Ref sig .tc := ⟨.hbm, 148, rfl⟩
abbrev main_v112 : Ref sig .tc := ⟨.hbm, 149, rfl⟩
abbrev main_c_21 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_22 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S20000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S20000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S20000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S20000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S20000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S20000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S20000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S20000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S20000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S20000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S20000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x32_S64x32_0_0 : ∀ a, (![0, 0] : Fin 2 → Nat) a + S64x32.size a ≤ S64x32.size a
  h_S64x32 : 0 < S64x32.numel
  inb_S20000x32_S20000x32_0_0 : ∀ a, (![0, 0] : Fin 2 → Nat) a + S20000x32.size a ≤ S20000x32.size a
  h_S20000x32 : 0 < S20000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S20000x32_S20000x32 : S20000x32.ShapeCasts S20000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S32x64_S32x64_0_0 : ∀ a, (![0, 0] : Fin 2 → Nat) a + S32x64.size a ≤ S32x64.size a
  h_S32x64 : 0 < S32x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x64_S64x64_S20000x64_1_0_0_1_n_n_wf : DotDims.WF S20000x64 S64x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S20000x64_S64x32_S20000x32_1_0_0_1_n_n_wf : DotDims.WF S20000x64 S64x32 S20000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S20000x32_S32x64_S20000x64_1_0_0_1_n_n_wf : DotDims.WF S20000x32 S32x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S100000x64.size a
  hwx2_2 : ∀ i : grid2.Coords, EltTy.bits .f32 = 32 ∨ (Rect.block (s := S100000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S100000x64.size a
  hwx3_2 : ∀ i : grid3.Coords, EltTy.bits .f32 = 32 ∨ (Rect.block (s := S100000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S100000x64.size a
  hwx4_0 : ∀ i : grid4.Coords, EltTy.bits .f32 = 32 ∨ (Rect.block (s := S100000x64) S20000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x32.size a ≤ S100000x32.size a
  hwx4_2 : ∀ i : grid4.Coords, EltTy.bits .f32 = 32 ∨ (Rect.block (s := S100000x32) S20000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x32.size a ≤ S100000x32.size a
  hwx5_0 : ∀ i : grid5.Coords, EltTy.bits .f32 = 32 ∨ (Rect.block (s := S100000x32) S20000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x32.size a ≤ S100000x32.size a
  hwx5_2 : ∀ i : grid5.Coords, EltTy.bits .f32 = 32 ∨ (Rect.block (s := S100000x32) S20000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x32.size a ≤ S100000x32.size a
  hwx6_0 : ∀ i : grid6.Coords, EltTy.bits .f32 = 32 ∨ (Rect.block (s := S100000x32) S20000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S20000x64.size a ≤ S100000x64.size a
  hwx6_2 : ∀ i : grid6.Coords, EltTy.bits .f32 = 32 ∨ (Rect.block (s := S100000x64) S20000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x64.size a ≤ S100000x64.size a
  hwx7_0 : ∀ i : grid7.Coords, EltTy.bits .f32 = 32 ∨ (Rect.block (s := S100000x64) S20000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S20000x64.size a ≤ S100000x64.size a
  hwx7_2 : ∀ i : grid7.Coords, EltTy.bits .f32 = 32 ∨ (Rect.block (s := S100000x64) S20000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S20000x64.size a ≤ S100000x64.size a
  hwx8_0 : ∀ i : grid8.Coords, EltTy.bits .f32 = 32 ∨ (Rect.block (s := S100000x64) S20000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S20000x64.size a ≤ S100000x64.size a
  hwx8_2 : ∀ i : grid8.Coords, EltTy.bits .f32 = 32 ∨ (Rect.block (s := S100000x64) S20000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S20000x64.size a ≤ S100000x64.size a
  hwx9_0 : ∀ i : grid9.Coords, EltTy.bits .f32 = 32 ∨ (Rect.block (s := S100000x64) S20000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S20000x64.size a ≤ S100000x64.size a
  hwx9_2 : ∀ i : grid9.Coords, EltTy.bits .f32 = 32 ∨ (Rect.block (s := S100000x64) S20000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S20000x64.size a ≤ S100000x64.size a
  hwx10_0 : ∀ i : grid10.Coords, EltTy.bits .f32 = 32 ∨ (Rect.block (s := S100000x64) S20000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S20000x64.size a ≤ S100000x64.size a
  hwx10_2 : ∀ i : grid10.Coords, EltTy.bits .f32 = 32 ∨ (Rect.block (s := S100000x64) S20000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S20000x64.size a ≤ S100000x64.size a
  hwx11_0 : ∀ i : grid11.Coords, EltTy.bits .f32 = 32 ∨ (Rect.block (s := S100000x64) S20000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S20000x64.size a ≤ S100000x64.size a
  hwx11_2 : ∀ i : grid11.Coords, EltTy.bits .f32 = 32 ∨ (Rect.block (s := S100000x64) S20000x64.size (cc11_transform_2 i) (hinb11_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S20000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S20000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S20000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S20000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S20000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S20000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S20000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v93) S20000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v94) S20000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v107) S20000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v108) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v109) S20000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v109) S20000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v110) S20000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v123) S20000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v124) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v125) S20000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 183
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S1x1600000, .i32⟩
  | 15 => ⟨S1600000, .i32⟩
  | 16 => ⟨S100000, .i32⟩
  | 17 => ⟨S1700000, .i32⟩
  | 18 => ⟨S1x1600000, .i32⟩
  | 19 => ⟨S1600000, .i32⟩
  | 20 => ⟨S100000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x32, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x32, .f32⟩
  | 107 => ⟨S1700000x1, .f32⟩
  | 108 => ⟨S1700000x32, .f32⟩
  | 109 => ⟨S1700000x32, .f32⟩
  | 110 => ⟨S_, .f32⟩
  | 111 => ⟨S100000x32, .f32⟩
  | 112 => ⟨S1700000x1, .i32⟩
  | 113 => ⟨S100000x32, .f32⟩
  | 114 => ⟨S1x32, .f32⟩
  | 115 => ⟨S100000x32, .f32⟩
  | 116 => ⟨S100000x32, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000x64, .f32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000x64, .f32⟩
  | 22 => ⟨S1700000x1, .f32⟩
  | 23 => ⟨S1700000x64, .f32⟩
  | 24 => ⟨S1700000x64, .f32⟩
  | 25 => ⟨S_, .f32⟩
  | 26 => ⟨S100000x64, .f32⟩
  | 27 => ⟨S1700000x1, .i32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call0_cst : Ref sig .tc := ⟨.hbm, 71, rfl⟩
abbrev main_call0_v0 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_cst : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_14 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_16 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call2_cst : Ref sig .tc := ⟨.hbm, 137, rfl⟩
abbrev main_call2_v0 : Ref sig .tc := ⟨.hbm, 138, rfl⟩
abbrev main_v100 : Ref sig .tc := ⟨.hbm, 139, rfl⟩
abbrev main_v101 : Ref sig .tc := ⟨.hbm, 140, rfl⟩
abbrev main_c_17 : Ref sig .tc := ⟨.hbm, 141, rfl⟩
abbrev main_v102 : Ref sig .tc := ⟨.hbm, 142, rfl⟩
abbrev main_v103 : Ref sig .tc := ⟨.hbm, 143, rfl⟩
abbrev main_c_18 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_19 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_call3_cst : Ref sig .tc := ⟨.hbm, 160, rfl⟩
abbrev main_call3_v0 : Ref sig .tc := ⟨.hbm, 161, rfl⟩
abbrev main_v118 : Ref sig .tc := ⟨.hbm, 162, rfl⟩
abbrev main_v119 : Ref sig .tc := ⟨.hbm, 163, rfl⟩
abbrev main_c_20 : Ref sig .tc := ⟨.hbm, 164, rfl⟩
abbrev main_v120 : Ref sig .tc := ⟨.hbm, 165, rfl⟩
abbrev main_v121 : Ref sig .tc := ⟨.hbm, 166, rfl⟩
abbrev main_c_21 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_22 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.KRun.lean ====
/-
  The whole program's run, with every array named.  The program is twelve device regions among seven stretches of
  host operations; run from any memory with zero counters, every weakly fair execution terminates without a fault,
  and each buffer outside the regions' scratch ends holding the last boundary's contents: the fold of the stretches'
  operations and the regions' write-backs from the launch memory.  In particular the two results end at that fold,
  and the fourteen arguments as launched.
-/
import proofs.«141385_j45268955300493_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer outside the regions' scratch at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- The same run, the two results and the fourteen arguments named. -/
theorem run_named : θ_run defs (onTc (τ := τ) (main (F := F))) ⟨m, fun _ => 0, ρ⟩ (fun r => ∀ c : Dev nD,
      r.2.mem ((c.tc : Thread nD τ).loc main_v125) = W19 m ρ c (Proc.devRef .tc main_v125)
      ∧ r.2.mem ((c.tc : Thread nD τ).loc main_v77) = W19 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun s h c =>
      ⟨h c _ (mem_uc main_v125 (by decide)),
       h c _ (mem_uc main_v77 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)
    (run_all m ρ)

end Cert.KernelIdeal.KRun

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.Keep.lean ====
/-
  Buffers that a stretch of the program leaves alone.  A device region changes only its output array: an input
  array is read through its window and ends as it was found, and a buffer that is none of the region's arrays is not
  touched.  A stretch of host operations changes only the buffers its operations write.  So the fourteen arguments, and
  the three arrays the first stretch computes from the edge list (the edge sources, the edge targets and the edge
  weights), hold the same contents at every later boundary; and the narrow result of the sixth region survives the
  six regions and three stretches after it.
-/
import proofs.«141385_j45268955300493_1_alg».proof.Proof.Gen.KernelIdeal.Frame
import proofs.«141385_j45268955300493_1_alg».proof.Proof.LibHostKept

noncomputable section

namespace Cert.KernelIdeal.Keep

open Cert.KernelIdeal Cert.KernelIdeal.Gen Cert.Kept
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The fourteen arguments. -/
def Args : List (Ref sig .tc) := [main_arg0, main_arg1, main_arg2, main_arg3, main_arg4, main_arg5, main_arg6, main_arg7, main_arg8, main_arg9, main_arg10, main_arg11, main_arg12, main_arg13]

/-- The arguments and the three arrays computed from the edge list. -/
def Base : List (Ref sig .tc) := [main_arg0, main_arg1, main_arg2, main_arg3, main_arg4, main_arg5, main_arg6, main_arg7, main_arg8, main_arg9, main_arg10, main_arg11, main_arg12, main_arg13, main_v3, main_v7, main_v29]

/-! ## A region changes only its output array -/

theorem keepR0 (c : Dev nD) (b : Ref sig .tc) (hb : b ≠ main_v30) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  exact W2_of_ne m ρ c b (fun w => by
    match w with
    | ⟨0, _⟩ => exact fun e => h0 e.symm
    | ⟨1, _⟩ => exact fun e => h1 e.symm
    | ⟨2, _⟩ => exact fun e => hb e.symm)

theorem keepR1 (c : Dev nD) (b : Ref sig .tc) (hb : b ≠ main_v45) :
    W4 m ρ c (Proc.devRef .tc b) = W3 m ρ c (Proc.devRef .tc b) := by
  by_cases h0 : b = main_v43
  · subst h0; exact (W4_arr m ρ c 0).trans (((dat1 (V3 m ρ) c).arrAt_in 0 rfl _).trans (A_eq1 (V3 m ρ) c 0))
  by_cases h1 : b = main_v44
  · subst h1; exact (W4_arr m ρ c 1).trans (((dat1 (V3 m ρ) c).arrAt_in 1 rfl _).trans (A_eq1 (V3 m ρ) c 1))
  exact W4_of_ne m ρ c b (fun w => by
    match w with
    | ⟨0, _⟩ => exact fun e => h0 e.symm
    | ⟨1, _⟩ => exact fun e => h1 e.symm
    | ⟨2, _⟩ => exact fun e => hb e.symm)

theorem keepR2 (c : Dev nD) (b : Ref sig .tc) (hb : b ≠ main_v46) :
    W5 m ρ c (Proc.devRef .tc b) = W4 m ρ c (Proc.devRef .tc b) := by
  by_cases h0 : b = main_v45
  · subst h0; exact (W5_arr m ρ c 0).trans (((dat2 (V4 m ρ) c).arrAt_in 0 rfl _).trans (A_eq2 (V4 m ρ) c 0))
  by_cases h1 : b = main_arg4
  · subst h1; exact (W5_arr m ρ c 1).trans (((dat2 (V4 m ρ) c).arrAt_in 1 rfl _).trans (A_eq2 (V4 m ρ) c 1))
  exact W5_of_ne m ρ c b (fun w => by
    match w with
    | ⟨0, _⟩ => exact fun e => h0 e.symm
    | ⟨1, _⟩ => exact fun e => h1 e.symm
    | ⟨2, _⟩ => exact fun e => hb e.symm)

theorem keepR3 (c : Dev nD) (b : Ref sig .tc) (hb : b ≠ main_v61) :
    W7 m ρ c (Proc.devRef .tc b) = W6 m ρ c (Proc.devRef .tc b) := by
  by_cases h0 : b = main_v59
  · subst h0; exact (W7_arr m ρ c 0).trans (((dat3 (V6 m ρ) c).arrAt_in 0 rfl _).trans (A_eq3 (V6 m ρ) c 0))
  by_cases h1 : b = main_v60
  · subst h1; exact (W7_arr m ρ c 1).trans (((dat3 (V6 m ρ) c).arrAt_in 1 rfl _).trans (A_eq3 (V6 m ρ) c 1))
  exact W7_of_ne m ρ c b (fun w => by
    match w with
    | ⟨0, _⟩ => exact fun e => h0 e.symm
    | ⟨1, _⟩ => exact fun e => h1 e.symm
    | ⟨2, _⟩ => exact fun e => hb e.symm)

theorem keepR4 (c : Dev nD) (b : Ref sig .tc) (hb : b ≠ main_v62) :
    W8 m ρ c (Proc.devRef .tc b) = W7 m ρ c (Proc.devRef .tc b) := by
  by_cases h0 : b = main_v61
  · subst h0; exact (W8_arr m ρ c 0).trans (((dat4 (V7 m ρ) c).arrAt_in 0 rfl _).trans (A_eq4 (V7 m ρ) c 0))
  by_cases h1 : b = main_arg6
  · subst h1; exact (W8_arr m ρ c 1).trans (((dat4 (V7 m ρ) c).arrAt_in 1 rfl _).trans (A_eq4 (V7 m ρ) c 1))
  exact W8_of_ne m ρ c b (fun w => by
    match w with
    | ⟨0, _⟩ => exact fun e => h0 e.symm
    | ⟨1, _⟩ => exact fun e => h1 e.symm
    | ⟨2, _⟩ => exact fun e => hb e.symm)

theorem keepR5 (c : Dev nD) (b : Ref sig .tc) (hb : b ≠ main_v77) :
    W10 m ρ c (Proc.devRef .tc b) = W9 m ρ c (Proc.devRef .tc b) := by
  by_cases h0 : b = main_v75
  · subst h0; exact (W10_arr m ρ c 0).trans (((dat5 (V9 m ρ) c).arrAt_in 0 rfl _).trans (A_eq5 (V9 m ρ) c 0))
  by_cases h1 : b = main_v76
  · subst h1; exact (W10_arr m ρ c 1).trans (((dat5 (V9 m ρ) c).arrAt_in 1 rfl _).trans (A_eq5 (V9 m ρ) c 1))
  exact W10_of_ne m ρ c b (fun w => by
    match w with
    | ⟨0, _⟩ => exact fun e => h0 e.symm
    | ⟨1, _⟩ => exact fun e => h1 e.symm
    | ⟨2, _⟩ => exact fun e => hb e.symm)

theorem keepR6 (c : Dev nD) (b : Ref sig .tc) (hb : b ≠ main_v78) :
    W11 m ρ c (Proc.devRef .tc b) = W10 m ρ c (Proc.devRef .tc b) := by
  by_cases h0 : b = main_v77
  · subst h0; exact (W11_arr m ρ c 0).trans (((dat6 (V10 m ρ) c).arrAt_in 0 rfl _).trans (A_eq6 (V10 m ρ) c 0))
  by_cases h1 : b = main_arg8
  · subst h1; exact (W11_arr m ρ c 1).trans (((dat6 (V10 m ρ) c).arrAt_in 1 rfl _).trans (A_eq6 (V10 m ρ) c 1))
  exact W11_of_ne m ρ c b (fun w => by
    match w with
    | ⟨0, _⟩ => exact fun e => h0 e.symm
    | ⟨1, _⟩ => exact fun e => h1 e.symm
    | ⟨2, _⟩ => exact fun e => hb e.symm)

theorem keepR7 (c : Dev nD) (b : Ref sig .tc) (hb : b ≠ main_v93) :
    W13 m ρ c (Proc.devRef .tc b) = W12 m ρ c (Proc.devRef .tc b) := by
  by_cases h0 : b = main_v91
  · subst h0; exact (W13_arr m ρ c 0).trans (((dat7 (V12 m ρ) c).arrAt_in 0 rfl _).trans (A_eq7 (V12 m ρ) c 0))
  by_cases h1 : b = main_v92
  · subst h1; exact (W13_arr m ρ c 1).trans (((dat7 (V12 m ρ) c).arrAt_in 1 rfl _).trans (A_eq7 (V12 m ρ) c 1))
  exact W13_of_ne m ρ c b (fun w => by
    match w with
    | ⟨0, _⟩ => exact fun e => h0 e.symm
    | ⟨1, _⟩ => exact fun e => h1 e.symm
    | ⟨2, _⟩ => exact fun e => hb e.symm)

theorem keepR8 (c : Dev nD) (b : Ref sig .tc) (hb : b ≠ main_v94) :
    W14 m ρ c (Proc.devRef .tc b) = W13 m ρ c (Proc.devRef .tc b) := by
  by_cases h0 : b = main_v93
  · subst h0; exact (W14_arr m ρ c 0).trans (((dat8 (V13 m ρ) c).arrAt_in 0 rfl _).trans (A_eq8 (V13 m ρ) c 0))
  by_cases h1 : b = main_arg10
  · subst h1; exact (W14_arr m ρ c 1).trans (((dat8 (V13 m ρ) c).arrAt_in 1 rfl _).trans (A_eq8 (V13 m ρ) c 1))
  exact W14_of_ne m ρ c b (fun w => by
    match w with
    | ⟨0, _⟩ => exact fun e => h0 e.symm
    | ⟨1, _⟩ => exact fun e => h1 e.symm
    | ⟨2, _⟩ => exact fun e => hb e.symm)

theorem keepR9 (c : Dev nD) (b : Ref sig .tc) (hb : b ≠ main_v109) :
    W16 m ρ c (Proc.devRef .tc b) = W15 m ρ c (Proc.devRef .tc b) := by
  by_cases h0 : b = main_v107
  · subst h0; exact (W16_arr m ρ c 0).trans (((dat9 (V15 m ρ) c).arrAt_in 0 rfl _).trans (A_eq9 (V15 m ρ) c 0))
  by_cases h1 : b = main_v108
  · subst h1; exact (W16_arr m ρ c 1).trans (((dat9 (V15 m ρ) c).arrAt_in 1 rfl _).trans (A_eq9 (V15 m ρ) c 1))
  exact W16_of_ne m ρ c b (fun w => by
    match w with
    | ⟨0, _⟩ => exact fun e => h0 e.symm
    | ⟨1, _⟩ => exact fun e => h1 e.symm
    | ⟨2, _⟩ => exact fun e => hb e.symm)

theorem keepR10 (c : Dev nD) (b : Ref sig .tc) (hb : b ≠ main_v110) :
    W17 m ρ c (Proc.devRef .tc b) = W16 m ρ c (Proc.devRef .tc b) := by
  by_cases h0 : b = main_v109
  · subst h0; exact (W17_arr m ρ c 0).trans (((dat10 (V16 m ρ) c).arrAt_in 0 rfl _).trans (A_eq10 (V16 m ρ) c 0))
  by_cases h1 : b = main_arg12
  · subst h1; exact (W17_arr m ρ c 1).trans (((dat10 (V16 m ρ) c).arrAt_in 1 rfl _).trans (A_eq10 (V16 m ρ) c 1))
  exact W17_of_ne m ρ c b (fun w => by
    match w with
    | ⟨0, _⟩ => exact fun e => h0 e.symm
    | ⟨1, _⟩ => exact fun e => h1 e.symm
    | ⟨2, _⟩ => exact fun e => hb e.symm)

theorem keepR11 (c : Dev nD) (b : Ref sig .tc) (hb : b ≠ main_v125) :
    W19 m ρ c (Proc.devRef .tc b) = W18 m ρ c (Proc.devRef .tc b) := by
  by_cases h0 : b = main_v123
  · subst h0; exact (W19_arr m ρ c 0).trans (((dat11 (V18 m ρ) c).arrAt_in 0 rfl _).trans (A_eq11 (V18 m ρ) c 0))
  by_cases h1 : b = main_v124
  · subst h1; exact (W19_arr m ρ c 1).trans (((dat11 (V18 m ρ) c).arrAt_in 1 rfl _).trans (A_eq11 (V18 m ρ) c 1))
  exact W19_of_ne m ρ c b (fun w => by
    match w with
    | ⟨0, _⟩ => exact fun e => h0 e.symm
    | ⟨1, _⟩ => exact fun e => h1 e.symm
    | ⟨2, _⟩ => exact fun e => hb e.symm)

/-! ## A stretch of host operations changes only what it writes -/

theorem keepH0 (c : Dev nD) (b : Ref sig .tc) (hb : b ∈ Args) :
    W1 m ρ c (Proc.devRef .tc b) = W0 m ρ c (Proc.devRef .tc b) := by
  simp only [Args, List.mem_cons, List.not_mem_nil, or_false] at hb
  rcases hb with rfl | rfl | rfl | rfl | rfl | rfl | rfl | rfl | rfl | rfl | rfl | rfl | rfl | rfl
  all_goals host_kept hostOps0

theorem keepH1 (c : Dev nD) (b : Ref sig .tc) (hb : b ∈ Base ∨ b = main_v77) :
    W3 m ρ c (Proc.devRef .tc b) = W2 m ρ c (Proc.devRef .tc b) := by
  simp only [Base, List.mem_cons, List.not_mem_nil, or_false] at hb
  rcases hb with (rfl | rfl | rfl | rfl | rfl | rfl | rfl | rfl | rfl | rfl | rfl | rfl | rfl | rfl | rfl | rfl | rfl) | rfl
  all_goals host_kept hostOps1

theorem keepH3 (c : Dev nD) (b : Ref sig .tc) (hb : b ∈ Base ∨ b = main_v77) :
    W6 m ρ c (Proc.devRef .tc b) = W5 m ρ c (Proc.devRef .tc b) := by
  simp only [Base, List.mem_cons, List.not_mem_nil, or_false] at hb
  rcases hb with (rfl | rfl | rfl | rfl | rfl | rfl | rfl | rfl | rfl | rfl | rfl | rfl | rfl | rfl | rfl | rfl | rfl) | rfl
  all_goals host_kept hostOps3

theorem keepH5 (c : Dev nD) (b : Ref sig .tc) (hb : b ∈ Base ∨ b = main_v77) :
    W9 m ρ c (Proc.devRef .tc b) = W8 m ρ c (Proc.devRef .tc b) := by
  simp only [Base, List.mem_cons, List.not_mem_nil, or_false] at hb
  rcases hb with (rfl | rfl | rfl | rfl | rfl | rfl | rfl | rfl | rfl | rfl | rfl | rfl | rfl | rfl | rfl | rfl | rfl) | rfl
  all_goals host_kept hostOps5

theorem keepH7 (c : Dev nD) (b : Ref sig .tc) (hb : b ∈ Base ∨ b = main_v77) :
    W12 m ρ c (Proc.devRef .tc b) = W11 m ρ c (Proc.devRef .tc b) := by
  simp only [Base, List.mem_cons, List.not_mem_nil, or_false] at hb
  rcases hb with (rfl | rfl | rfl | rfl | rfl | rfl | rfl | rfl | rfl | rfl | rfl | rfl | rfl | rfl | rfl | rfl | rfl) | rfl
  all_goals host_kept hostOps7

theorem keepH9 (c : Dev nD) (b : Ref sig .tc) (hb : b ∈ Base ∨ b = main_v77) :
    W15 m ρ c (Proc.devRef .tc b) = W14 m ρ c (Proc.devRef .tc b) := by
  simp only [Base, List.mem_cons, List.not_mem_nil, or_false] at hb
  rcases hb with (rfl | rfl | rfl | rfl | rfl | rfl | rfl | rfl | rfl | rfl | rfl | rfl | rfl | rfl | rfl | rfl | rfl) | rfl
  all_goals host_kept hostOps9

theorem keepH11 (c : Dev nD) (b : Ref sig .tc) (hb : b ∈ Base ∨ b = main_v77) :
    W18 m ρ c (Proc.devRef .tc b) = W17 m ρ c (Proc.devRef .tc b) := by
  simp only [Base, List.mem_cons, List.not_mem_nil, or_false] at hb
  rcases hb with (rfl | rfl | rfl | rfl | rfl | rfl | rfl | rfl | rfl | rfl | rfl | rfl | rfl | rfl | rfl | rfl | rfl) | rfl
  all_goals host_kept hostOps11

/-! ## From the first boundary on, the arguments and the three edge arrays stay -/

theorem ne_out (b : Ref sig .tc) (hb : b ∈ Base) : b ≠ main_v30 ∧ b ≠ main_v45 ∧ b ≠ main_v46 ∧ b ≠ main_v61 ∧ b ≠ main_v62
    ∧ b ≠ main_v77 ∧ b ≠ main_v78 ∧ b ≠ main_v93 ∧ b ≠ main_v94 ∧ b ≠ main_v109 ∧ b ≠ main_v110 ∧ b ≠ main_v125 :=
  (by decide : ∀ b ∈ Base, b ≠ main_v30 ∧ b ≠ main_v45 ∧ b ≠ main_v46 ∧ b ≠ main_v61 ∧ b ≠ main_v62
    ∧ b ≠ main_v77 ∧ b ≠ main_v78 ∧ b ≠ main_v93 ∧ b ≠ main_v94 ∧ b ≠ main_v109 ∧ b ≠ main_v110 ∧ b ≠ main_v125) b hb

theorem carry2 (c : Dev nD) (b : Ref sig .tc) (hb : b ∈ Base) :
    W2 m ρ c (Proc.devRef .tc b) = W1 m ρ c (Proc.devRef .tc b) :=
  keepR0 m ρ c b (ne_out b hb).1

theorem carry3 (c : Dev nD) (b : Ref sig .tc) (hb : b ∈ Base) :
    W3 m ρ c (Proc.devRef .tc b) = W1 m ρ c (Proc.devRef .tc b) :=
  (keepH1 m ρ c b (Or.inl hb)).trans (carry2 m ρ c b hb)

theorem carry4 (c : Dev nD) (b : Ref sig .tc) (hb : b ∈ Base) :
    W4 m ρ c (Proc.devRef .tc b) = W1 m ρ c (Proc.devRef .tc b) :=
  (keepR1 m ρ c b (ne_out b hb).2.1).trans (carry3 m ρ c b hb)

theorem carry5 (c : Dev nD) (b : Ref sig .tc) (hb : b ∈ Base) :
    W5 m ρ c (Proc.devRef .tc b) = W1 m ρ c (Proc.devRef .tc b) :=
  (keepR2 m ρ c b (ne_out b hb).2.2.1).trans (carry4 m ρ c b hb)

theorem carry6 (c : Dev nD) (b : Ref sig .tc) (hb : b ∈ Base) :
    W6 m ρ c (Proc.devRef .tc b) = W1 m ρ c (Proc.devRef .tc b) :=
  (keepH3 m ρ c b (Or.inl hb)).trans (carry5 m ρ c b hb)

theorem carry7 (c : Dev nD) (b : Ref sig .tc) (hb : b ∈ Base) :
    W7 m ρ c (Proc.devRef .tc b) = W1 m ρ c (Proc.devRef .tc b) :=
  (keepR3 m ρ c b (ne_out b hb).2.2.2.1).trans (carry6 m ρ c b hb)

theorem carry8 (c : Dev nD) (b : Ref sig .tc) (hb : b ∈ Base) :
    W8 m ρ c (Proc.devRef .tc b) = W1 m ρ c (Proc.devRef .tc b) :=
  (keepR4 m ρ c b (ne_out b hb).2.2.2.2.1).trans (carry7 m ρ c b hb)

theorem carry9 (c : Dev nD) (b : Ref sig .tc) (hb : b ∈ Base) :
    W9 m ρ c (Proc.devRef .tc b) = W1 m ρ c (Proc.devRef .tc b) :=
  (keepH5 m ρ c b (Or.inl hb)).trans (carry8 m ρ c b hb)

theorem carry10 (c : Dev nD) (b : Ref sig .tc) (hb : b ∈ Base) :
    W10 m ρ c (Proc.devRef .tc b) = W1 m ρ c (Proc.devRef .tc b) :=
  (keepR5 m ρ c b (ne_out b hb).2.2.2.2.2.1).trans (carry9 m ρ c b hb)

theorem carry11 (c : Dev nD) (b : Ref sig .tc) (hb : b ∈ Base) :
    W11 m ρ c (Proc.devRef .tc b) = W1 m ρ c (Proc.devRef .tc b) :=
  (keepR6 m ρ c b (ne_out b hb).2.2.2.2.2.2.1).trans (carry10 m ρ c b hb)

theorem carry12 (c : Dev nD) (b : Ref sig .tc) (hb : b ∈ Base) :
    W12 m ρ c (Proc.devRef .tc b) = W1 m ρ c (Proc.devRef .tc b) :=
  (keepH7 m ρ c b (Or.inl hb)).trans (carry11 m ρ c b hb)

theorem carry13 (c : Dev nD) (b : Ref sig .tc) (hb : b ∈ Base) :
    W13 m ρ c (Proc.devRef .tc b) = W1 m ρ c (Proc.devRef .tc b) :=
  (keepR7 m ρ c b (ne_out b hb).2.2.2.2.2.2.2.1).trans (carry12 m ρ c b hb)

theorem carry14 (c : Dev nD) (b : Ref sig .tc) (hb : b ∈ Base) :
    W14 m ρ c (Proc.devRef .tc b) = W1 m ρ c (Proc.devRef .tc b) :=
  (keepR8 m ρ c b (ne_out b hb).2.2.2.2.2.2.2.2.1).trans (carry13 m ρ c b hb)

theorem carry15 (c : Dev nD) (b : Ref sig .tc) (hb : b ∈ Base) :
    W15 m ρ c (Proc.devRef .tc b) = W1 m ρ c (Proc.devRef .tc b) :=
  (keepH9 m ρ c b (Or.inl hb)).trans (carry14 m ρ c b hb)

theorem carry16 (c : Dev nD) (b : Ref sig .tc) (hb : b ∈ Base) :
    W16 m ρ c (Proc.devRef .tc b) = W1 m ρ c (Proc.devRef .tc b) :=
  (keepR9 m ρ c b (ne_out b hb).2.2.2.2.2.2.2.2.2.1).trans (carry15 m ρ c b hb)

theorem carry17 (c : Dev nD) (b : Ref sig .tc) (hb : b ∈ Base) :
    W17 m ρ c (Proc.devRef .tc b) = W1 m ρ c (Proc.devRef .tc b) :=
  (keepR10 m ρ c b (ne_out b hb).2.2.2.2.2.2.2.2.2.2.1).trans (carry16 m ρ c b hb)

theorem carry18 (c : Dev nD) (b : Ref sig .tc) (hb : b ∈ Base) :
    W18 m ρ c (Proc.devRef .tc b) = W1 m ρ c (Proc.devRef .tc b) :=
  (keepH11 m ρ c b (Or.inl hb)).trans (carry17 m ρ c b hb)

theorem carry19 (c : Dev nD) (b : Ref sig .tc) (hb : b ∈ Base) :
    W19 m ρ c (Proc.devRef .tc b) = W1 m ρ c (Proc.devRef .tc b) :=
  (keepR11 m ρ c b (ne_out b hb).2.2.2.2.2.2.2.2.2.2.2).trans (carry18 m ρ c b hb)

/-- An argument at the first boundary is as launched. -/
theorem launch (c : Dev nD) (b : Ref sig .tc) (hb : b ∈ Args) :
    W1 m ρ c (Proc.devRef .tc b) = m ((c : Thread nD τ).loc b) :=
  (keepH0 m ρ c b hb).trans rfl

/-! ## The narrow result survives what comes after it -/

theorem carryZ11 (c : Dev nD) :
    W11 m ρ c (Proc.devRef .tc main_v77) = W10 m ρ c (Proc.devRef .tc main_v77) :=
  keepR6 m ρ c main_v77 (by decide)

theorem carryZ12 (c : Dev nD) :
    W12 m ρ c (Proc.devRef .tc main_v77) = W10 m ρ c (Proc.devRef .tc main_v77) :=
  (keepH7 m ρ c main_v77 (Or.inr rfl)).trans (carryZ11 m ρ c)

theorem carryZ13 (c : Dev nD) :
    W13 m ρ c (Proc.devRef .tc main_v77) = W10 m ρ c (Proc.devRef .tc main_v77) :=
  (keepR7 m ρ c main_v77 (by decide)).trans (carryZ12 m ρ c)

theorem carryZ14 (c : Dev nD) :
    W14 m ρ c (Proc.devRef .tc main_v77) = W10 m ρ c (Proc.devRef .tc main_v77) :=
  (keepR8 m ρ c main_v77 (by decide)).trans (carryZ13 m ρ c)

theorem carryZ15 (c : Dev nD) :
    W15 m ρ c (Proc.devRef .tc main_v77) = W10 m ρ c (Proc.devRef .tc main_v77) :=
  (keepH9 m ρ c main_v77 (Or.inr rfl)).trans (carryZ14 m ρ c)

theorem carryZ16 (c : Dev nD) :
    W16 m ρ c (Proc.devRef .tc main_v77) = W10 m ρ c (Proc.devRef .tc main_v77) :=
  (keepR9 m ρ c main_v77 (by decide)).trans (carryZ15 m ρ c)

theorem carryZ17 (c : Dev nD) :
    W17 m ρ c (Proc.devRef .tc main_v77) = W10 m ρ c (Proc.devRef .tc main_v77) :=
  (keepR10 m ρ c main_v77 (by decide)).trans (carryZ16 m ρ c)

theorem carryZ18 (c : Dev nD) :
    W18 m ρ c (Proc.devRef .tc main_v77) = W10 m ρ c (Proc.devRef .tc main_v77) :=
  (keepH11 m ρ c main_v77 (Or.inr rfl)).trans (carryZ17 m ρ c)

theorem carryZ19 (c : Dev nD) :
    W19 m ρ c (Proc.devRef .tc main_v77) = W10 m ρ c (Proc.devRef .tc main_v77) :=
  (keepR11 m ρ c main_v77 (by decide)).trans (carryZ18 m ρ c)

end Cert.KernelIdeal.Keep

end
-- ==== Proof.Agg.lean ====
/-
  The aggregation along the edges, as one function.  Every layer's stretch of host operations does the same thing to
  the product it is handed: gather its rows along the edges, scale each by the edge's weight, add the scaled rows into
  the rows of the edges' targets, and re-lay the layer's bias vector as a one-row matrix.  Here that is stated once
  for each width, and each of the six stretches is read as it: from ANY contents of the buffers, the stretch leaves in
  its aggregate buffer the aggregation of the product buffer's contents by the three edge arrays' contents, and in its
  bias-row buffer the bias argument re-laid.
-/
import proofs.«141385_j45268955300493_1_alg».proof.Proof.Gen.KernelIdeal.Launch
import Idealize.ShloMosaic.Lib.StableHlo.Run

noncomputable section

namespace Cert.KernelIdeal.Agg

open Cert.KernelIdeal Cert.KernelIdeal.Gen
open Idealize.ShloMosaic Idealize.ShloMosaic.TcCoe Idealize.SL.Sem Idealize.ShloMosaic.StableHlo

variable {F : FTy → Type} [FloatOps F]

/-- Rows of a 100000 × 64 array gathered along the 1700000 edges (each source index normalised as the host does:
    a negative index has 100000 added), scaled by the edge weights, and added into the edges' target rows of a zero array. -/
def agg64 (S D : (⟨S1700000, .i32⟩ : BufTy).Contents (Elt F)) (N : (⟨S1700000, .f32⟩ : BufTy).Contents (Elt F))
    (H : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 D)
    (mulf (Host.gather gather_S100000x64_S1700000x1_S1700000x64_1_0_n_n_0_1_164 H
        (broadcastInDim S1700000x1 ![0] bcast_S1700000_S1700000x1_0
          (select (cmpi .slt S (broadcastInDim S1700000 ![] bcast_S_S1700000 (constantI S_ 32 0#32)))
            (addi S (broadcastInDim S1700000 ![] bcast_S_S1700000 (constantI S_ 32 100000#32))) S)))
      (broadcastInDim S1700000x64 ![0, 1] bcast_S1700000x1_S1700000x64_0_1
        (broadcastInDim S1700000x1 ![0] bcast_S1700000_S1700000x1_0 N)))

/-- Rows of a 100000 × 32 array gathered along the 1700000 edges (each source index normalised as the host does:
    a negative index has 100000 added), scaled by the edge weights, and added into the edges' target rows of a zero array. -/
def agg32 (S D : (⟨S1700000, .i32⟩ : BufTy).Contents (Elt F)) (N : (⟨S1700000, .f32⟩ : BufTy).Contents (Elt F))
    (H : (⟨S100000x32, .f32⟩ : BufTy).Contents (Elt F)) : (⟨S100000x32, .f32⟩ : BufTy).Contents (Elt F) :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 D)
    (mulf (Host.gather gather_S100000x32_S1700000x1_S1700000x32_1_0_n_n_0_1_132 H
        (broadcastInDim S1700000x1 ![0] bcast_S1700000_S1700000x1_0
          (select (cmpi .slt S (broadcastInDim S1700000 ![] bcast_S_S1700000 (constantI S_ 32 0#32)))
            (addi S (broadcastInDim S1700000 ![] bcast_S_S1700000 (constantI S_ 32 100000#32))) S)))
      (broadcastInDim S1700000x32 ![0, 1] bcast_S1700000x1_S1700000x32_0_1
        (broadcastInDim S1700000x1 ![0] bcast_S1700000_S1700000x1_0 N)))

/-- The stretch before region 1: its aggregate buffer. -/
theorem agg_of1 (v : Valuation τ sig (Elt F)) :
    StableHlo.after hostOps1 v (Proc.devRef .tc main_v43)
      = agg64 (v (Proc.devRef .tc main_v3)) (v (Proc.devRef .tc main_v7)) (v (Proc.devRef .tc main_v29)) (v (Proc.devRef .tc main_v30)) := by
  after_results_simp <;> rfl

/-- The stretch before region 1: its bias row. -/
theorem bias_of1 (v : Valuation τ sig (Elt F)) :
    StableHlo.after hostOps1 v (Proc.devRef .tc main_v44)
      = shapeCast S1x64 (v (Proc.devRef .tc main_arg3)) shapeCasts_S64_S1x64 := by
  after_results_simp <;> rfl

/-- The stretch before region 3: its aggregate buffer. -/
theorem agg_of3 (v : Valuation τ sig (Elt F)) :
    StableHlo.after hostOps3 v (Proc.devRef .tc main_v59)
      = agg64 (v (Proc.devRef .tc main_v3)) (v (Proc.devRef .tc main_v7)) (v (Proc.devRef .tc main_v29)) (v (Proc.devRef .tc main_v46)) := by
  after_results_simp <;> rfl

/-- The stretch before region 3: its bias row. -/
theorem bias_of3 (v : Valuation τ sig (Elt F)) :
    StableHlo.after hostOps3 v (Proc.devRef .tc main_v60)
      = shapeCast S1x64 (v (Proc.devRef .tc main_arg5)) shapeCasts_S64_S1x64 := by
  after_results_simp <;> rfl

/-- The stretch before region 5: its aggregate buffer. -/
theorem agg_of5 (v : Valuation τ sig (Elt F)) :
    StableHlo.after hostOps5 v (Proc.devRef .tc main_v75)
      = agg32 (v (Proc.devRef .tc main_v3)) (v (Proc.devRef .tc main_v7)) (v (Proc.devRef .tc main_v29)) (v (Proc.devRef .tc main_v62)) := by
  after_results_simp <;> rfl

/-- The stretch before region 5: its bias row. -/
theorem bias_of5 (v : Valuation τ sig (Elt F)) :
    StableHlo.after hostOps5 v (Proc.devRef .tc main_v76)
      = shapeCast S1x32 (v (Proc.devRef .tc main_arg7)) shapeCasts_S32_S1x32 := by
  after_results_simp <;> rfl

/-- The stretch before region 7: its aggregate buffer. -/
theorem agg_of7 (v : Valuation τ sig (Elt F)) :
    StableHlo.after hostOps7 v (Proc.devRef .tc main_v91)
      = agg64 (v (Proc.devRef .tc main_v3)) (v (Proc.devRef .tc main_v7)) (v (Proc.devRef .tc main_v29)) (v (Proc.devRef .tc main_v78)) := by
  after_results_simp <;> rfl

/-- The stretch before region 7: its bias row. -/
theorem bias_of7 (v : Valuation τ sig (Elt F)) :
    StableHlo.after hostOps7 v (Proc.devRef .tc main_v92)
      = shapeCast S1x64 (v (Proc.devRef .tc main_arg9)) shapeCasts_S64_S1x64 := by
  after_results_simp <;> rfl

/-- The stretch before region 9: its aggregate buffer. -/
theorem agg_of9 (v : Valuation τ sig (Elt F)) :
    StableHlo.after hostOps9 v (Proc.devRef .tc main_v107)
      = agg64 (v (Proc.devRef .tc main_v3)) (v (Proc.devRef .tc main_v7)) (v (Proc.devRef .tc main_v29)) (v (Proc.devRef .tc main_v94)) := by
  after_results_simp <;> rfl

/-- The stretch before region 9: its bias row. -/
theorem bias_of9 (v : Valuation τ sig (Elt F)) :
    StableHlo.after hostOps9 v (Proc.devRef .tc main_v108)
      = shapeCast S1x64 (v (Proc.devRef .tc main_arg11)) shapeCasts_S64_S1x64 := by
  after_results_simp <;> rfl

/-- The stretch before region 11: its aggregate buffer. -/
theorem agg_of11 (v : Valuation τ sig (Elt F)) :
    StableHlo.after hostOps11 v (Proc.devRef .tc main_v123)
      = agg64 (v (Proc.devRef .tc main_v3)) (v (Proc.devRef .tc main_v7)) (v (Proc.devRef .tc main_v29)) (v (Proc.devRef .tc main_v110)) := by
  after_results_simp <;> rfl

/-- The stretch before region 11: its bias row. -/
theorem bias_of11 (v : Valuation τ sig (Elt F)) :
    StableHlo.after hostOps11 v (Proc.devRef .tc main_v124)
      = shapeCast S1x64 (v (Proc.devRef .tc main_arg13)) shapeCasts_S64_S1x64 := by
  after_results_simp <;> rfl

end Cert.KernelIdeal.Agg

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.Lin0.lean ====
/-
  The first dense product: rows 20000 t … 20000 t + 19999 of a 100000 × 64 array against the whole 64 × 64 weight
  matrix, written back as the same rows of the product.  The five row blocks tile the 100000 rows, so the array the
  region leaves is the product of the two arrays it found, entry by entry the sum over the shared coordinate
  (the roundings to bf16 on the way into the product are the identity on the extended reals).
-/
import proofs.«141385_j45268955300493_1_alg».proof.Proof.Gen.KernelIdeal.Frame
import proofs.«141385_j45268955300493_1_alg».proof.Proof.Gen.ReferenceIdeal.Read
import proofs.«141385_j45268955300493_1_alg».proof.Proof.LibPlainProduct
import proofs.«141385_j45268955300493_1_alg».proof.Proof.LibHostProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Lin0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a 100000 × 64 array with a 64 × 64 matrix, as the host spells it. -/
abbrev G (A : FVec Ideal S100000x64 .f32) (B : FVec Ideal S64x64 .f32) : FVec Ideal S100000x64 .f32 :=
  Host.dotGeneral Cert.ReferenceIdeal.dot_S100000x64_S64x64_S100000x64_1_0_0_1_n_n none A B

/-- One row block's product at an entry: the sum over the shared coordinate. -/
theorem pay_apply (x0 : Vec Ideal S20000x64 .f32) (x1 : Vec Ideal S64x64 .f32) (p : Fin 20000) (q : Fin 64) :
    k0_pay1 x0 x1 (ix2 p q) = ∑ k : Fin 64, x0 (ix2 p k) * x1 (ix2 k q) := by
  unfold k0_pay1
  try simp only [shapeCast_self]
  exact Cert.PlainProduct.matmul_nn_apply _ none x0 x1 p q

/-- Where the blocks sit: at grid point t the row windows are at block row t, the weight window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S20000x64) hz, View.ld_unit_zero (S := S64x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k0_pay1 (iblk0 V c 0 t) (iblk0 V c 1 t) (ix2 p q) = G (V c main_arg0) (V c main_arg2) (((cfg0.win 2).blk t).view.emb (ix2 p q))
  have hN : t.val < 5 := lt_of_lt_of_eq t.isLt (show cfg0.N = 5 from N_0)
  refine (pay_apply _ _ p q).trans ?_
  have hemb : ((cfg0.win 2).blk t).view.emb (ix2 p q) = ix2 (⟨t.val * 20000 + p.val, by omega⟩ : Fin 100000) q := by
    funext a; apply Fin.ext
    match a with
    | ⟨0, _⟩ => show win0_2.index t (0 : Fin 2) * 20000 + 1 * p.val = t.val * 20000 + p.val; rw [e4]; omega
    | ⟨1, _⟩ => show win0_2.index t (1 : Fin 2) * 64 + 1 * q.val = q.val; rw [e5]; omega
  rw [hemb]
  refine Eq.trans ?_ (Cert.HostProduct.dotGeneral_nn_apply _ none (V c main_arg0) (V c main_arg2) _ q).symm
  refine Finset.sum_congr rfl fun k _ => ?_
  have h0 : iblk0 V c 0 t (ix2 p k) = V c main_arg0 (ix2 (⟨t.val * 20000 + p.val, by omega⟩ : Fin 100000) k) := by
    unfold iblk0
    rw [View.read_apply]
    show V c main_arg0 _ = _
    refine congrArg (V c main_arg0) ?_
    funext a; apply Fin.ext
    match a with
    | ⟨0, _⟩ => show win0_0.index t (0 : Fin 2) * 20000 + 1 * p.val = t.val * 20000 + p.val; rw [e0]; omega
    | ⟨1, _⟩ => show win0_0.index t (1 : Fin 2) * 64 + 1 * k.val = k.val; rw [e1]; omega
  have h1 : iblk0 V c 1 t (ix2 k q) = V c main_arg2 (ix2 k q) := by
    unfold iblk0
    rw [View.read_apply]
    show V c main_arg2 _ = _
    refine congrArg (V c main_arg2) ?_
    funext a; apply Fin.ext
    match a with
    | ⟨0, _⟩ => show win0_1.index t (0 : Fin 2) * 64 + 1 * k.val = k.val; rw [e2]; omega
    | ⟨1, _⟩ => show win0_1.index t (1 : Fin 2) * 64 + 1 * q.val = q.val; rw [e3]; omega
  rw [h0, h1]

/-- An index of the array is in point t's block iff each coordinate is in the block's range on its axis. -/
theorem mem_blk (t : Fin cfg0.N) (i : S100000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v30).slice (win0_2.rect t)).set ↔ _
  rw [View.set_slice_whole, Rect.mem_set_unit]
  exact Iff.rfl

/-- The array the region leaves: the product of the two arrays it found (row r lies in the block r / 20000). -/
theorem final (c : Dev nD) : (dat0 V c).arrAt 2 cfg0.N = G (V c main_arg0) (V c main_arg2) :=
  (dat0 V c).arrAt_eq_of_cover 2 (G (V c main_arg0) (V c main_arg2)) (fun t _ => flushed_eq V c t) fun i => by
    have hi0 : (i 0).val < 100000 := (i 0).isLt
    have hi1 : (i 1).val < 64 := (i 1).isLt
    have hN : cfg0.N = 5 := N_0
    let t : Fin cfg0.N := ⟨(i 0).val / 20000, by rw [hN]; omega⟩
    obtain ⟨e0, e1, e2, e3, e4, e5⟩ := idx_facts t
    refine ⟨t, flush0_2 t, ?_⟩
    rw [mem_blk]
    intro a
    match a with
    | ⟨0, _⟩ => show win0_2.index t (0 : Fin 2) * 20000 ≤ (i 0).val ∧ (i 0).val < win0_2.index t (0 : Fin 2) * 20000 + 20000; rw [e4]; show (i 0).val / 20000 * 20000 ≤ (i 0).val ∧ (i 0).val < (i 0).val / 20000 * 20000 + 20000; omega
    | ⟨1, _⟩ => show win0_2.index t (1 : Fin 2) * 64 ≤ (i 1).val ∧ (i 1).val < win0_2.index t (1 : Fin 2) * 64 + 64; rw [e5]; omega

end Cert.KernelIdeal.Lin0

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.Post1.lean ====
/-
  The first bias pass: rows 20000 t … 20000 t + 19999 of the aggregated features, plus the bias row repeated down the rows, then the maximum with zero.
  The five row blocks tile the 100000 rows, so the array the region leaves is that pointwise expression of the two
  arrays it found.
-/
import proofs.«141385_j45268955300493_1_alg».proof.Proof.Gen.KernelIdeal.Frame
import proofs.«141385_j45268955300493_1_alg».proof.Proof.Gen.ReferenceIdeal.Read
import proofs.«141385_j45268955300493_1_alg».proof.Proof.LibRowsProduct
import proofs.«141385_j45268955300493_1_alg».proof.Proof.LibHostBroadcast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Post1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A 100000 × 64 array plus a 1 × 64 row repeated down the rows, then the maximum with zero, as the host spells it. -/
abbrev G (A : FVec Ideal S100000x64 .f32) (B : FVec Ideal S1x64 .f32) : FVec Ideal S100000x64 .f32 :=
  maximumf (addf A (broadcastInDim S100000x64 ![0, 1] Cert.ReferenceIdeal.Gen.bcast_S1x64_S100000x64_0_1 B))
    (broadcastInDim S100000x64 ![] Cert.ReferenceIdeal.Gen.bcast_S_S100000x64 (constant S_ .f32 0x00000000#32))

/-- The host's spelling read at an entry. -/
theorem G_apply (A : FVec Ideal S100000x64 .f32) (B : FVec Ideal S1x64 .f32) (p : Fin 100000) (q : Fin 64) :
    G A B (ix2 p q) = max (A (ix2 p q) + B (ix2 (0 : Fin 1) q)) (Ideal.ofBits .f32 0x00000000#32) := by
  show max (A (ix2 p q) + broadcastInDim S100000x64 ![0, 1] _ B (ix2 p q))
    (broadcastInDim S100000x64 ![] _ (constant (F := Ideal) S_ .f32 0x00000000#32) (ix2 p q)) = _
  rw [broadcastInDim_apply ![0, 1] _ B (ix2 p q) (ix2 (0 : Fin 1) q) (fun ax => by
    match ax with
    | ⟨0, _⟩ => show (0 : ℕ) = if (1 : ℕ) = 1 then 0 else p.val; rw [if_pos rfl]
    | ⟨1, _⟩ => show q.val = if (64 : ℕ) = 1 then 0 else q.val; rw [if_neg (by decide)]),
    Cert.HostBroadcast.scalar_apply]
  rfl

/-- One row block of the pass at an entry. -/
theorem pay_apply (x0 : Vec Ideal S20000x64 .f32) (x1 : Vec Ideal S1x64 .f32) (p : Fin 20000) (q : Fin 64) :
    k1_pay1 x0 x1 (ix2 p q) = max (x0 (ix2 p q) + x1 (ix2 (0 : Fin 1) q)) (Ideal.ofBits .f32 0x00000000#32) := by
  unfold k1_pay1
  simp only [shapeCast_self]
  show max (x0 (ix2 p q) + broadcastTo S20000x64 x1 _ (ix2 p q)) _ = _
  rw [Cert.RowsProduct.broadcastTo_1n_an_apply]
  rfl

/-- Where the blocks sit: at grid point t the row windows are at block row t, the bias window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the pointwise expression. -/
theorem flushed_eq (c : Dev nD) (t : Fin cfg1.N) :
    (dat1 V c).flushed 2 t = ((cfg1.win 2).blk t).view.read (Elt Ideal) (G (V c main_v43) (V c main_v44)) := by
  show (cfg1.win 2).cut (grid1.coords t) ((dat1 V c).after 2 t) = _
  rw [after1_2]
  unfold out1_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k1_pay1 (iblk1 V c 0 t) (iblk1 V c 1 t) (ix2 p q) = G (V c main_v43) (V c main_v44) (((cfg1.win 2).blk t).view.emb (ix2 p q))
  have hN : t.val < 5 := lt_of_lt_of_eq t.isLt (show cfg1.N = 5 from N_1)
  refine (pay_apply _ _ p q).trans ?_
  have hemb : ((cfg1.win 2).blk t).view.emb (ix2 p q) = ix2 (⟨t.val * 20000 + p.val, by omega⟩ : Fin 100000) q := by
    funext a; apply Fin.ext
    match a with
    | ⟨0, _⟩ => show win1_2.index t (0 : Fin 2) * 20000 + 1 * p.val = t.val * 20000 + p.val; rw [e4]; omega
    | ⟨1, _⟩ => show win1_2.index t (1 : Fin 2) * 64 + 1 * q.val = q.val; rw [e5]; omega
  rw [hemb]
  refine Eq.trans ?_ (G_apply (V c main_v43) (V c main_v44) _ q).symm
  have h0 : iblk1 V c 0 t (ix2 p q) = V c main_v43 (ix2 (⟨t.val * 20000 + p.val, by omega⟩ : Fin 100000) q) := by
    unfold iblk1
    rw [View.read_apply]
    show V c main_v43 _ = _
    refine congrArg (V c main_v43) ?_
    funext a; apply Fin.ext
    match a with
    | ⟨0, _⟩ => show win1_0.index t (0 : Fin 2) * 20000 + 1 * p.val = t.val * 20000 + p.val; rw [e0]; omega
    | ⟨1, _⟩ => show win1_0.index t (1 : Fin 2) * 64 + 1 * q.val = q.val; rw [e1]; omega
  have h1 : iblk1 V c 1 t (ix2 (0 : Fin 1) q) = V c main_v44 (ix2 (0 : Fin 1) q) := by
    unfold iblk1
    rw [View.read_apply]
    show V c main_v44 _ = _
    refine congrArg (V c main_v44) ?_
    funext a; apply Fin.ext
    match a with
    | ⟨0, _⟩ => show win1_1.index t (0 : Fin 2) * 1 + 1 * 0 = 0; rw [e2]
    | ⟨1, _⟩ => show win1_1.index t (1 : Fin 2) * 64 + 1 * q.val = q.val; rw [e3]; omega
  rw [h0, h1]

/-- An index of the array is in point t's block iff each coordinate is in the block's range on its axis. -/
theorem mem_blk (t : Fin cfg1.N) (i : S100000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v45).slice (win1_2.rect t)).set ↔ _
  rw [View.set_slice_whole, Rect.mem_set_unit]
  exact Iff.rfl

/-- The array the region leaves: the pointwise expression of the two arrays it found (row r lies in the block r / 20000). -/
theorem final (c : Dev nD) : (dat1 V c).arrAt 2 cfg1.N = G (V c main_v43) (V c main_v44) :=
  (dat1 V c).arrAt_eq_of_cover 2 (G (V c main_v43) (V c main_v44)) (fun t _ => flushed_eq V c t) fun i => by
    have hi0 : (i 0).val < 100000 := (i 0).isLt
    have hi1 : (i 1).val < 64 := (i 1).isLt
    have hN : cfg1.N = 5 := N_1
    let t : Fin cfg1.N := ⟨(i 0).val / 20000, by rw [hN]; omega⟩
    obtain ⟨e0, e1, e2, e3, e4, e5⟩ := idx_facts t
    refine ⟨t, flush1_2 t, ?_⟩
    rw [mem_blk]
    intro a
    match a with
    | ⟨0, _⟩ => show win1_2.index t (0 : Fin 2) * 20000 ≤ (i 0).val ∧ (i 0).val < win1_2.index t (0 : Fin 2) * 20000 + 20000; rw [e4]; show (i 0).val / 20000 * 20000 ≤ (i 0).val ∧ (i 0).val < (i 0).val / 20000 * 20000 + 20000; omega
    | ⟨1, _⟩ => show win1_2.index t (1 : Fin 2) * 64 ≤ (i 1).val ∧ (i 1).val < win1_2.index t (1 : Fin 2) * 64 + 64; rw [e5]; omega

end Cert.KernelIdeal.Post1

end
-- ==== Proof.LibRowOfVector.lean ====
/-
  A vector laid out as a one-row matrix, two spellings of one array.

  Re-laying a length-`n` vector as a `[1, n]` array (a change of shape that keeps the row-major order) and
  broadcasting it into `[1, n]` along the second axis give the same array: entry `(0, q)` of either is the
  vector's entry `q`.
-/
import Idealize.ShloMosaic.Lib.Pipeline.Value
import Idealize.ShloMosaic.Lib.ValueLayout
import Idealize.ShloMosaic.Lib.ValueIdx

noncomputable section

namespace Cert.RowOfVector

open Idealize.ShloMosaic Idealize.ShloMosaic.ValueIdx

variable {α : Type}

/-- The re-laid vector and the broadcast vector are one `[1, n]` array. -/
theorem shapeCast_eq_broadcastInDim {n : ℕ} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext j
  obtain ⟨u, q, rfl⟩ : ∃ (u : Fin 1) (q : Fin n), j = ix2 u q := ⟨j 0, j 1, eq_ix2 j⟩
  obtain rfl : u = 0 := Fin.ext (by omega)
  rw [shapeCast_a_1a_apply]
  refine (broadcastInDim_apply ![1] h' v (ix2 (0 : Fin 1) q) (ix1 q) ?_).symm
  intro ax
  match ax with
  | ⟨0, _⟩ =>
    show q.val = if n = 1 then 0 else q.val
    split
    · have := q.isLt; omega
    · rfl

end Cert.RowOfVector

end
-- ==== Proof.Layer1.lean ====
/-
  The first layer, boundary by boundary.  The first stretch of host operations computes, from the edge list alone,
  the edge sources, the edge targets and the edge weights (inverse square roots of the degrees, multiplied along each
  edge); these are the reference's own operations on the same argument.  The first region multiplies the node
  features by the first weight matrix: the reference's product.  The second stretch gathers the product's rows along
  the edges, scales them by the edge weights and adds them into their targets — the reference's operations again —
  and re-lays the bias as a row.  The second region adds the bias row and takes the maximum with zero: the reference's
  broadcast, sum and rectifier.  So after four boundaries the layer's output array holds the reference's first hidden
  layer.
-/
import proofs.«141385_j45268955300493_1_alg».proof.Proof.Keep
import proofs.«141385_j45268955300493_1_alg».proof.Proof.Agg
import proofs.«141385_j45268955300493_1_alg».proof.Proof.Lin0
import proofs.«141385_j45268955300493_1_alg».proof.Proof.Post1
import proofs.«141385_j45268955300493_1_alg».proof.Proof.LibRowOfVector
import proofs.«141385_j45268955300493_1_alg».proof.Proof.Gen.ReferenceIdeal.Read
import Idealize.ShloMosaic.Lib.StableHlo.Run

noncomputable section

namespace Cert.KernelIdeal.Layer1

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge sources, as the first stretch leaves them. -/
theorem src1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

/-- The edge targets. -/
theorem dst1 : W1 m ρ c (Proc.devRef .tc main_v7) = Cert.ReferenceIdeal.Read.val_main_v7 (F := Ideal) (m ((c : Thread nD τ).loc main_arg1)) := by
  show StableHlo.after hostOps0 (W0 m ρ c) (Proc.devRef .tc main_v7) = _
  after_results_simp <;> rfl

/-- The edge weights. -/
theorem wgt1 : W1 m ρ c (Proc.devRef .tc main_v29) = Cert.ReferenceIdeal.Read.val_main_v29 (F := Ideal) (m ((c : Thread nD τ).loc main_arg1)) := by
  show StableHlo.after hostOps0 (W0 m ρ c) (Proc.devRef .tc main_v29) = _
  after_results_simp <;> rfl

/-- The first region's product is the reference's. -/
theorem lin1 : W2 m ρ c (Proc.devRef .tc main_v30) = Cert.ReferenceIdeal.Read.val_main_v30 (F := Ideal) (m ((c : Thread nD τ).loc main_arg0)) (m ((c : Thread nD τ).loc main_arg2)) := by
  refine ((W2_arr m ρ c 2).trans (Lin0.final (V1 m ρ) c)).trans ?_
  have ea : V1 m ρ c main_arg0 = (m ((c : Thread nD τ).loc main_arg0)) := launch m ρ c main_arg0 (by decide)
  have eb : V1 m ρ c main_arg2 = (m ((c : Thread nD τ).loc main_arg2)) := launch m ρ c main_arg2 (by decide)
  rw [ea, eb]
  rfl

/-- The second stretch gathers, scales and adds along the edges as the reference does. -/
theorem agg1 : W3 m ρ c (Proc.devRef .tc main_v43) = Cert.ReferenceIdeal.Read.val_main_v43 (F := Ideal) (m ((c : Thread nD τ).loc main_arg0)) (m ((c : Thread nD τ).loc main_arg1)) (m ((c : Thread nD τ).loc main_arg2)) := by
  refine (Agg.agg_of1 (W2 m ρ c)).trans ?_
  rw [((carry2 m ρ c main_v3 (by decide)).trans (src1 m ρ c)), ((carry2 m ρ c main_v7 (by decide)).trans (dst1 m ρ c)), ((carry2 m ρ c main_v29 (by decide)).trans (wgt1 m ρ c)), lin1 m ρ c]
  rfl

/-- The bias re-laid as a row is the reference's broadcast of it into a row. -/
theorem bias1 : W3 m ρ c (Proc.devRef .tc main_v44) = Cert.ReferenceIdeal.Read.val_main_v44 (F := Ideal) (m ((c : Thread nD τ).loc main_arg3)) := by
  refine (Agg.bias_of1 (W2 m ρ c)).trans ?_
  rw [((carry2 m ρ c main_arg3 (by decide)).trans (launch m ρ c main_arg3 (by decide)))]
  exact Cert.RowOfVector.shapeCast_eq_broadcastInDim _ _ _

/-- The second region leaves the reference's first hidden layer. -/
theorem out1 : W4 m ρ c (Proc.devRef .tc main_v45) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  refine ((W4_arr m ρ c 2).trans (Post1.final (V3 m ρ) c)).trans ?_
  have ea : V3 m ρ c main_v43 = _ := agg1 m ρ c
  have eb : V3 m ρ c main_v44 = _ := bias1 m ρ c
  rw [ea, eb]
  rfl

end Cert.KernelIdeal.Layer1

end
-- ==== Proof.Lin2.lean ====
/-
  The second dense product: rows 20000 t … 20000 t + 19999 of a 100000 × 64 array against the whole 64 × 64 weight
  matrix, written back as the same rows of the product.  The five row blocks tile the 100000 rows, so the array the
  region leaves is the product of the two arrays it found, entry by entry the sum over the shared coordinate
  (the roundings to bf16 on the way into the product are the identity on the extended reals).
-/
import proofs.«141385_j45268955300493_1_alg».proof.Proof.Gen.KernelIdeal.Frame
import proofs.«141385_j45268955300493_1_alg».proof.Proof.Gen.ReferenceIdeal.Read
import proofs.«141385_j45268955300493_1_alg».proof.Proof.LibPlainProduct
import proofs.«141385_j45268955300493_1_alg».proof.Proof.LibHostProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Lin2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a 100000 × 64 array with a 64 × 64 matrix, as the host spells it. -/
abbrev G (A : FVec Ideal S100000x64 .f32) (B : FVec Ideal S64x64 .f32) : FVec Ideal S100000x64 .f32 :=
  Host.dotGeneral Cert.ReferenceIdeal.dot_S100000x64_S64x64_S100000x64_1_0_0_1_n_n none A B

/-- One row block's product at an entry: the sum over the shared coordinate. -/
theorem pay_apply (x0 : Vec Ideal S20000x64 .f32) (x1 : Vec Ideal S64x64 .f32) (p : Fin 20000) (q : Fin 64) :
    k2_pay1 x0 x1 (ix2 p q) = ∑ k : Fin 64, x0 (ix2 p k) * x1 (ix2 k q) := by
  unfold k2_pay1
  try simp only [shapeCast_self]
  exact Cert.PlainProduct.matmul_nn_apply _ none x0 x1 p q

/-- Where the blocks sit: at grid point t the row windows are at block row t, the weight window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product. -/
theorem flushed_eq (c : Dev nD) (t : Fin cfg2.N) :
    (dat2 V c).flushed 2 t = ((cfg2.win 2).blk t).view.read (Elt Ideal) (G (V c main_v45) (V c main_arg4)) := by
  show (cfg2.win 2).cut (grid2.coords t) ((dat2 V c).after 2 t) = _
  rw [after2_2]
  unfold out2_2
  rw [View.canon_unit_zero hz]
  simp only [View.ld_unit_zero (S := S20000x64) hz, View.ld_unit_zero (S := S64x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k2_pay1 (iblk2 V c 0 t) (iblk2 V c 1 t) (ix2 p q) = G (V c main_v45) (V c main_arg4) (((cfg2.win 2).blk t).view.emb (ix2 p q))
  have hN : t.val < 5 := lt_of_lt_of_eq t.isLt (show cfg2.N = 5 from N_2)
  refine (pay_apply _ _ p q).trans ?_
  have hemb : ((cfg2.win 2).blk t).view.emb (ix2 p q) = ix2 (⟨t.val * 20000 + p.val, by omega⟩ : Fin 100000) q := by
    funext a; apply Fin.ext
    match a with
    | ⟨0, _⟩ => show win2_2.index t (0 : Fin 2) * 20000 + 1 * p.val = t.val * 20000 + p.val; rw [e4]; omega
    | ⟨1, _⟩ => show win2_2.index t (1 : Fin 2) * 64 + 1 * q.val = q.val; rw [e5]; omega
  rw [hemb]
  refine Eq.trans ?_ (Cert.HostProduct.dotGeneral_nn_apply _ none (V c main_v45) (V c main_arg4) _ q).symm
  refine Finset.sum_congr rfl fun k _ => ?_
  have h0 : iblk2 V c 0 t (ix2 p k) = V c main_v45 (ix2 (⟨t.val * 20000 + p.val, by omega⟩ : Fin 100000) k) := by
    unfold iblk2
    rw [View.read_apply]
    show V c main_v45 _ = _
    refine congrArg (V c main_v45) ?_
    funext a; apply Fin.ext
    match a with
    | ⟨0, _⟩ => show win2_0.index t (0 : Fin 2) * 20000 + 1 * p.val = t.val * 20000 + p.val; rw [e0]; omega
    | ⟨1, _⟩ => show win2_0.index t (1 : Fin 2) * 64 + 1 * k.val = k.val; rw [e1]; omega
  have h1 : iblk2 V c 1 t (ix2 k q) = V c main_arg4 (ix2 k q) := by
    unfold iblk2
    rw [View.read_apply]
    show V c main_arg4 _ = _
    refine congrArg (V c main_arg4) ?_
    funext a; apply Fin.ext
    match a with
    | ⟨0, _⟩ => show win2_1.index t (0 : Fin 2) * 64 + 1 * k.val = k.val; rw [e2]; omega
    | ⟨1, _⟩ => show win2_1.index t (1 : Fin 2) * 64 + 1 * q.val = q.val; rw [e3]; omega
  rw [h0, h1]

/-- An index of the array is in point t's block iff each coordinate is in the block's range on its axis. -/
theorem mem_blk (t : Fin cfg2.N) (i : S100000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v46).slice (win2_2.rect t)).set ↔ _
  rw [View.set_slice_whole, Rect.mem_set_unit]
  exact Iff.rfl

/-- The array the region leaves: the product of the two arrays it found (row r lies in the block r / 20000). -/
theorem final (c : Dev nD) : (dat2 V c).arrAt 2 cfg2.N = G (V c main_v45) (V c main_arg4) :=
  (dat2 V c).arrAt_eq_of_cover 2 (G (V c main_v45) (V c main_arg4)) (fun t _ => flushed_eq V c t) fun i => by
    have hi0 : (i 0).val < 100000 := (i 0).isLt
    have hi1 : (i 1).val < 64 := (i 1).isLt
    have hN : cfg2.N = 5 := N_2
    let t : Fin cfg2.N := ⟨(i 0).val / 20000, by rw [hN]; omega⟩
    obtain ⟨e0, e1, e2, e3, e4, e5⟩ := idx_facts t
    refine ⟨t, flush2_2 t, ?_⟩
    rw [mem_blk]
    intro a
    match a with
    | ⟨0, _⟩ => show win2_2.index t (0 : Fin 2) * 20000 ≤ (i 0).val ∧ (i 0).val < win2_2.index t (0 : Fin 2) * 20000 + 20000; rw [e4]; show (i 0).val / 20000 * 20000 ≤ (i 0).val ∧ (i 0).val < (i 0).val / 20000 * 20000 + 20000; omega
    | ⟨1, _⟩ => show win2_2.index t (1 : Fin 2) * 64 ≤ (i 1).val ∧ (i 1).val < win2_2.index t (1 : Fin 2) * 64 + 64; rw [e5]; omega

end Cert.KernelIdeal.Lin2

end
-- ==== Proof.Post3.lean ====
/-
  The second bias pass: rows 20000 t … 20000 t + 19999 of the aggregated features, plus the bias row repeated down the rows, then the maximum with zero.
  The five row blocks tile the 100000 rows, so the array the region leaves is that pointwise expression of the two
  arrays it found.
-/
import proofs.«141385_j45268955300493_1_alg».proof.Proof.Gen.KernelIdeal.Frame
import proofs.«141385_j45268955300493_1_alg».proof.Proof.Gen.ReferenceIdeal.Read
import proofs.«141385_j45268955300493_1_alg».proof.Proof.LibRowsProduct
import proofs.«141385_j45268955300493_1_alg».proof.Proof.LibHostBroadcast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Post3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A 100000 × 64 array plus a 1 × 64 row repeated down the rows, then the maximum with zero, as the host spells it. -/
abbrev G (A : FVec Ideal S100000x64 .f32) (B : FVec Ideal S1x64 .f32) : FVec Ideal S100000x64 .f32 :=
  maximumf (addf A (broadcastInDim S100000x64 ![0, 1] Cert.ReferenceIdeal.Gen.bcast_S1x64_S100000x64_0_1 B))
    (broadcastInDim S100000x64 ![] Cert.ReferenceIdeal.Gen.bcast_S_S100000x64 (constant S_ .f32 0x00000000#32))

/-- The host's spelling read at an entry. -/
theorem G_apply (A : FVec Ideal S100000x64 .f32) (B : FVec Ideal S1x64 .f32) (p : Fin 100000) (q : Fin 64) :
    G A B (ix2 p q) = max (A (ix2 p q) + B (ix2 (0 : Fin 1) q)) (Ideal.ofBits .f32 0x00000000#32) := by
  show max (A (ix2 p q) + broadcastInDim S100000x64 ![0, 1] _ B (ix2 p q))
    (broadcastInDim S100000x64 ![] _ (constant (F := Ideal) S_ .f32 0x00000000#32) (ix2 p q)) = _
  rw [broadcastInDim_apply ![0, 1] _ B (ix2 p q) (ix2 (0 : Fin 1) q) (fun ax => by
    match ax with
    | ⟨0, _⟩ => show (0 : ℕ) = if (1 : ℕ) = 1 then 0 else p.val; rw [if_pos rfl]
    | ⟨1, _⟩ => show q.val = if (64 : ℕ) = 1 then 0 else q.val; rw [if_neg (by decide)]),
    Cert.HostBroadcast.scalar_apply]
  rfl

/-- One row block of the pass at an entry. -/
theorem pay_apply (x0 : Vec Ideal S20000x64 .f32) (x1 : Vec Ideal S1x64 .f32) (p : Fin 20000) (q : Fin 64) :
    k3_pay1 x0 x1 (ix2 p q) = max (x0 (ix2 p q) + x1 (ix2 (0 : Fin 1) q)) (Ideal.ofBits .f32 0x00000000#32) := by
  unfold k3_pay1
  simp only [shapeCast_self]
  show max (x0 (ix2 p q) + broadcastTo S20000x64 x1 _ (ix2 p q)) _ = _
  rw [Cert.RowsProduct.broadcastTo_1n_an_apply]
  rfl

/-- Where the blocks sit: at grid point t the row windows are at block row t, the bias window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the pointwise expression. -/
theorem flushed_eq (c : Dev nD) (t : Fin cfg3.N) :
    (dat3 V c).flushed 2 t = ((cfg3.win 2).blk t).view.read (Elt Ideal) (G (V c main_v59) (V c main_v60)) := by
  show (cfg3.win 2).cut (grid3.coords t) ((dat3 V c).after 2 t) = _
  rw [after3_2]
  unfold out3_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k3_pay1 (iblk3 V c 0 t) (iblk3 V c 1 t) (ix2 p q) = G (V c main_v59) (V c main_v60) (((cfg3.win 2).blk t).view.emb (ix2 p q))
  have hN : t.val < 5 := lt_of_lt_of_eq t.isLt (show cfg3.N = 5 from N_3)
  refine (pay_apply _ _ p q).trans ?_
  have hemb : ((cfg3.win 2).blk t).view.emb (ix2 p q) = ix2 (⟨t.val * 20000 + p.val, by omega⟩ : Fin 100000) q := by
    funext a; apply Fin.ext
    match a with
    | ⟨0, _⟩ => show win3_2.index t (0 : Fin 2) * 20000 + 1 * p.val = t.val * 20000 + p.val; rw [e4]; omega
    | ⟨1, _⟩ => show win3_2.index t (1 : Fin 2) * 64 + 1 * q.val = q.val; rw [e5]; omega
  rw [hemb]
  refine Eq.trans ?_ (G_apply (V c main_v59) (V c main_v60) _ q).symm
  have h0 : iblk3 V c 0 t (ix2 p q) = V c main_v59 (ix2 (⟨t.val * 20000 + p.val, by omega⟩ : Fin 100000) q) := by
    unfold iblk3
    rw [View.read_apply]
    show V c main_v59 _ = _
    refine congrArg (V c main_v59) ?_
    funext a; apply Fin.ext
    match a with
    | ⟨0, _⟩ => show win3_0.index t (0 : Fin 2) * 20000 + 1 * p.val = t.val * 20000 + p.val; rw [e0]; omega
    | ⟨1, _⟩ => show win3_0.index t (1 : Fin 2) * 64 + 1 * q.val = q.val; rw [e1]; omega
  have h1 : iblk3 V c 1 t (ix2 (0 : Fin 1) q) = V c main_v60 (ix2 (0 : Fin 1) q) := by
    unfold iblk3
    rw [View.read_apply]
    show V c main_v60 _ = _
    refine congrArg (V c main_v60) ?_
    funext a; apply Fin.ext
    match a with
    | ⟨0, _⟩ => show win3_1.index t (0 : Fin 2) * 1 + 1 * 0 = 0; rw [e2]
    | ⟨1, _⟩ => show win3_1.index t (1 : Fin 2) * 64 + 1 * q.val = q.val; rw [e3]; omega
  rw [h0, h1]

/-- An index of the array is in point t's block iff each coordinate is in the block's range on its axis. -/
theorem mem_blk (t : Fin cfg3.N) (i : S100000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v61).slice (win3_2.rect t)).set ↔ _
  rw [View.set_slice_whole, Rect.mem_set_unit]
  exact Iff.rfl

/-- The array the region leaves: the pointwise expression of the two arrays it found (row r lies in the block r / 20000). -/
theorem final (c : Dev nD) : (dat3 V c).arrAt 2 cfg3.N = G (V c main_v59) (V c main_v60) :=
  (dat3 V c).arrAt_eq_of_cover 2 (G (V c main_v59) (V c main_v60)) (fun t _ => flushed_eq V c t) fun i => by
    have hi0 : (i 0).val < 100000 := (i 0).isLt
    have hi1 : (i 1).val < 64 := (i 1).isLt
    have hN : cfg3.N = 5 := N_3
    let t : Fin cfg3.N := ⟨(i 0).val / 20000, by rw [hN]; omega⟩
    obtain ⟨e0, e1, e2, e3, e4, e5⟩ := idx_facts t
    refine ⟨t, flush3_2 t, ?_⟩
    rw [mem_blk]
    intro a
    match a with
    | ⟨0, _⟩ => show win3_2.index t (0 : Fin 2) * 20000 ≤ (i 0).val ∧ (i 0).val < win3_2.index t (0 : Fin 2) * 20000 + 20000; rw [e4]; show (i 0).val / 20000 * 20000 ≤ (i 0).val ∧ (i 0).val < (i 0).val / 20000 * 20000 + 20000; omega
    | ⟨1, _⟩ => show win3_2.index t (1 : Fin 2) * 64 ≤ (i 1).val ∧ (i 1).val < win3_2.index t (1 : Fin 2) * 64 + 64; rw [e5]; omega

end Cert.KernelIdeal.Post3

end
-- ==== Proof.Layer2.lean ====
/-
  The second layer, boundary by boundary.  Its first region multiplies the layer before's output by the layer's weight
  matrix: the reference's product of its own hidden layer, which that output is.  The stretch of host operations then
  gathers the product's rows along the edges, scales them by the edge weights and adds them into their targets — the
  reference's operations on the same edge arrays, which no boundary since the first has changed — and re-lays the
  bias as a row.  The second region adds the bias row and takes the maximum with zero: the reference's broadcast, sum and rectifier.  So the layer's output array holds the reference's second layer.
-/
import proofs.«141385_j45268955300493_1_alg».proof.Proof.Layer1
import proofs.«141385_j45268955300493_1_alg».proof.Proof.Lin2
import proofs.«141385_j45268955300493_1_alg».proof.Proof.Post3
import proofs.«141385_j45268955300493_1_alg».proof.Proof.Gen.ReferenceIdeal.Read
import Idealize.ShloMosaic.Lib.StableHlo.Run

noncomputable section

namespace Cert.KernelIdeal.Layer2

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's product is the reference's. -/
theorem lin2 : W5 m ρ c (Proc.devRef .tc main_v46) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W5_arr m ρ c 2).trans (Lin2.final (V4 m ρ) c)).trans ?_
  have ea : V4 m ρ c main_v45 = _ := Layer1.out1 m ρ c
  have eb : V4 m ρ c main_arg4 = (m ((c : Thread nD τ).loc main_arg4)) := ((carry4 m ρ c main_arg4 (by decide)).trans (launch m ρ c main_arg4 (by decide)))
  rw [ea, eb]
  rfl

/-- The stretch gathers, scales and adds along the edges as the reference does. -/
theorem agg2 : W6 m ρ c (Proc.devRef .tc main_v59) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Agg.agg_of3 (W5 m ρ c)).trans ?_
  rw [((carry5 m ρ c main_v3 (by decide)).trans (Layer1.src1 m ρ c)), ((carry5 m ρ c main_v7 (by decide)).trans (Layer1.dst1 m ρ c)), ((carry5 m ρ c main_v29 (by decide)).trans (Layer1.wgt1 m ρ c)), lin2 m ρ c]
  rfl

/-- The bias re-laid as a row is the reference's broadcast of it into a row. -/
theorem bias2 : W6 m ρ c (Proc.devRef .tc main_v60) = Cert.ReferenceIdeal.Read.val_main_v62 (F := Ideal) (m ((c : Thread nD τ).loc main_arg5)) := by
  refine (Agg.bias_of3 (W5 m ρ c)).trans ?_
  rw [((carry5 m ρ c main_arg5 (by decide)).trans (launch m ρ c main_arg5 (by decide)))]
  exact Cert.RowOfVector.shapeCast_eq_broadcastInDim _ _ _

/-- The layer's second region leaves the reference's second layer. -/
theorem out2 : W7 m ρ c (Proc.devRef .tc main_v61) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W7_arr m ρ c 2).trans (Post3.final (V6 m ρ) c)).trans ?_
  have ea : V6 m ρ c main_v59 = _ := agg2 m ρ c
  have eb : V6 m ρ c main_v60 = _ := bias2 m ρ c
  rw [ea, eb]
  rfl

end Cert.KernelIdeal.Layer2

end
-- ==== Proof.Lin4.lean ====
/-
  The third dense product: rows 20000 t … 20000 t + 19999 of a 100000 × 64 array against the whole 64 × 32 weight
  matrix, written back as the same rows of the product.  The five row blocks tile the 100000 rows, so the array the
  region leaves is the product of the two arrays it found, entry by entry the sum over the shared coordinate
  (the roundings to bf16 on the way into the product are the identity on the extended reals).
-/
import proofs.«141385_j45268955300493_1_alg».proof.Proof.Gen.KernelIdeal.Frame
import proofs.«141385_j45268955300493_1_alg».proof.Proof.Gen.ReferenceIdeal.Read
import proofs.«141385_j45268955300493_1_alg».proof.Proof.LibPlainProduct
import proofs.«141385_j45268955300493_1_alg».proof.Proof.LibHostProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Lin4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a 100000 × 64 array with a 64 × 32 matrix, as the host spells it. -/
abbrev G (A : FVec Ideal S100000x64 .f32) (B : FVec Ideal S64x32 .f32) : FVec Ideal S100000x32 .f32 :=
  Host.dotGeneral Cert.ReferenceIdeal.dot_S100000x64_S64x32_S100000x32_1_0_0_1_n_n none A B

/-- One row block's product at an entry: the sum over the shared coordinate. -/
theorem pay_apply (x0 : Vec Ideal S20000x64 .f32) (x1 : Vec Ideal S64x32 .f32) (p : Fin 20000) (q : Fin 32) :
    k4_pay1 x0 x1 (ix2 p q) = ∑ k : Fin 64, x0 (ix2 p k) * x1 (ix2 k q) := by
  unfold k4_pay1
  try simp only [shapeCast_self]
  exact Cert.PlainProduct.matmul_nn_apply _ none x0 x1 p q

/-- Where the blocks sit: at grid point t the row windows are at block row t, the weight window at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the product. -/
theorem flushed_eq (c : Dev nD) (t : Fin cfg4.N) :
    (dat4 V c).flushed 2 t = ((cfg4.win 2).blk t).view.read (Elt Ideal) (G (V c main_v61) (V c main_arg6)) := by
  show (cfg4.win 2).cut (grid4.coords t) ((dat4 V c).after 2 t) = _
  rw [after4_2]
  unfold out4_2
  rw [View.canon_unit_zero hz]
  simp only [View.ld_unit_zero (S := S20000x64) hz, View.ld_unit_zero (S := S64x32) hz]
  obtain ⟨e0, e1, e2, e3, e4, e5⟩ := idx_facts t
  funext j
  obtain ⟨p, q, rfl⟩ : ∃ (p : Fin 20000) (q : Fin 32), j = ix2 p q := ⟨j 0, j 1, eq_ix2 j⟩
  show k4_pay1 (iblk4 V c 0 t) (iblk4 V c 1 t) (ix2 p q) = G (V c main_v61) (V c main_arg6) (((cfg4.win 2).blk t).view.emb (ix2 p q))
  have hN : t.val < 5 := lt_of_lt_of_eq t.isLt (show cfg4.N = 5 from N_4)
  refine (pay_apply _ _ p q).trans ?_
  have hemb : ((cfg4.win 2).blk t).view.emb (ix2 p q) = ix2 (⟨t.val * 20000 + p.val, by omega⟩ : Fin 100000) q := by
    funext a; apply Fin.ext
    match a with
    | ⟨0, _⟩ => show win4_2.index t (0 : Fin 2) * 20000 + 1 * p.val = t.val * 20000 + p.val; rw [e4]; omega
    | ⟨1, _⟩ => show win4_2.index t (1 : Fin 2) * 32 + 1 * q.val = q.val; rw [e5]; omega
  rw [hemb]
  refine Eq.trans ?_ (Cert.HostProduct.dotGeneral_nn_apply _ none (V c main_v61) (V c main_arg6) _ q).symm
  refine Finset.sum_congr rfl fun k _ => ?_
  have h0 : iblk4 V c 0 t (ix2 p k) = V c main_v61 (ix2 (⟨t.val * 20000 + p.val, by omega⟩ : Fin 100000) k) := by
    unfold iblk4
    rw [View.read_apply]
    show V c main_v61 _ = _
    refine congrArg (V c main_v61) ?_
    funext a; apply Fin.ext
    match a with
    | ⟨0, _⟩ => show win4_0.index t (0 : Fin 2) * 20000 + 1 * p.val = t.val * 20000 + p.val; rw [e0]; omega
    | ⟨1, _⟩ => show win4_0.index t (1 : Fin 2) * 64 + 1 * k.val = k.val; rw [e1]; omega
  have h1 : iblk4 V c 1 t (ix2 k q) = V c main_arg6 (ix2 k q) := by
    unfold iblk4
    rw [View.read_apply]
    show V c main_arg6 _ = _
    refine congrArg (V c main_arg6) ?_
    funext a; apply Fin.ext
    match a with
    | ⟨0, _⟩ => show win4_1.index t (0 : Fin 2) * 64 + 1 * k.val = k.val; rw [e2]; omega
    | ⟨1, _⟩ => show win4_1.index t (1 : Fin 2) * 32 + 1 * q.val = q.val; rw [e3]; omega
  rw [h0, h1]

/-- An index of the array is in point t's block iff each coordinate is in the block's range on its axis. -/
theorem mem_blk (t : Fin cfg4.N) (i : S100000x32.Idx) :
    i ∈ ((cfg4.win 2).blk t).view.set ↔ ∀ a : Fin 2, win4_2.index t a * S20000x32.size a ≤ (i a).val ∧ (i a).val < win4_2.index t a * S20000x32.size a + S20000x32.size a := by
  show i ∈ ((View.whole main_v62).slice (win4_2.rect t)).set ↔ _
  rw [View.set_slice_whole, Rect.mem_set_unit]
  exact Iff.rfl

/-- The array the region leaves: the product of the two arrays it found (row r lies in the block r / 20000). -/
theorem final (c : Dev nD) : (dat4 V c).arrAt 2 cfg4.N = G (V c main_v61) (V c main_arg6) :=
  (dat4 V c).arrAt_eq_of_cover 2 (G (V c main_v61) (V c main_arg6)) (fun t _ => flushed_eq V c t) fun i => by
    have hi0 : (i 0).val < 100000 := (i 0).isLt
    have hi1 : (i 1).val < 32 := (i 1).isLt
    have hN : cfg4.N = 5 := N_4
    let t : Fin cfg4.N := ⟨(i 0).val / 20000, by rw [hN]; omega⟩
    obtain ⟨e0, e1, e2, e3, e4, e5⟩ := idx_facts t
    refine ⟨t, flush4_2 t, ?_⟩
    rw [mem_blk]
    intro a
    match a with
    | ⟨0, _⟩ => show win4_2.index t (0 : Fin 2) * 20000 ≤ (i 0).val ∧ (i 0).val < win4_2.index t (0 : Fin 2) * 20000 + 20000; rw [e4]; show (i 0).val / 20000 * 20000 ≤ (i 0).val ∧ (i 0).val < (i 0).val / 20000 * 20000 + 20000; omega
    | ⟨1, _⟩ => show win4_2.index t (1 : Fin 2) * 32 ≤ (i 1).val ∧ (i 1).val < win4_2.index t (1 : Fin 2) * 32 + 32; rw [e5]; omega

end Cert.KernelIdeal.Lin4

end
-- ==== Proof.Post5.lean ====
/-
  The third bias pass: rows 20000 t … 20000 t + 19999 of the aggregated features, plus the bias row repeated down the rows.
  The five row blocks tile the 100000 rows, so the array the region leaves is that pointwise expression of the two
  arrays it found.
-/
import proofs.«141385_j45268955300493_1_alg».proof.Proof.Gen.KernelIdeal.Frame
import proofs.«141385_j45268955300493_1_alg».proof.Proof.Gen.ReferenceIdeal.Read
import proofs.«141385_j45268955300493_1_alg».proof.Proof.LibRowsProduct
import proofs.«141385_j45268955300493_1_alg».proof.Proof.LibHostBroadcast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Post5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A 100000 × 32 array plus a 1 × 32 row repeated down the rows, as the host spells it. -/
abbrev G (A : FVec Ideal S100000x32 .f32) (B : FVec Ideal S1x32 .f32) : FVec Ideal S100000x32 .f32 :=
  addf A (broadcastInDim S100000x32 ![0, 1] Cert.ReferenceIdeal.Gen.bcast_S1x32_S100000x32_0_1 B)

/-- The host's spelling read at an entry. -/
theorem G_apply (A : FVec Ideal S100000x32 .f32) (B : FVec Ideal S1x32 .f32) (p : Fin 100000) (q : Fin 32) :
    G A B (ix2 p q) = A (ix2 p q) + B (ix2 (0 : Fin 1) q) := by
  show A (ix2 p q) + broadcastInDim S100000x32 ![0, 1] _ B (ix2 p q) = _
  rw [broadcastInDim_apply ![0, 1] _ B (ix2 p q) (ix2 (0 : Fin 1) q) (fun ax => by
    match ax with
    | ⟨0, _⟩ => show (0 : ℕ) = if (1 : ℕ) = 1 then 0 else p.val; rw [if_pos rfl]
    | ⟨1, _⟩ => show q.val = if (32 : ℕ) = 1 then 0 else q.val; rw [if_neg (by decide)])]

/-- One row block of the pass at an entry. -/
theorem pay_apply (x0 : Vec Ideal S20000x32 .f32) (x1 : Vec Ideal S1x32 .f32) (p : Fin 20000) (q : Fin 32) :
    k5_pay1 x0 x1 (ix2 p q) = x0 (ix2 p q) + x1 (ix2 (0 : Fin 1) q) := by
  unfold k5_pay1
  simp only [shapeCast_self]
  show x0 (ix2 p q) + broadcastTo S20000x32 x1 _ (ix2 p q) = _
  rw [Cert.RowsProduct.broadcastTo_1n_an_apply]

/-- Where the blocks sit: at grid point t the row windows are at block row t, the bias window at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of the pointwise expression. -/
theorem flushed_eq (c : Dev nD) (t : Fin cfg5.N) :
    (dat5 V c).flushed 2 t = ((cfg5.win 2).blk t).view.read (Elt Ideal) (G (V c main_v75) (V c main_v76)) := by
  show (cfg5.win 2).cut (grid5.coords t) ((dat5 V c).after 2 t) = _
  rw [after5_2]
  unfold out5_2
  rw [View.canon_unit_zero hz]
  simp only [View.ld_unit_zero (S := S20000x32) hz, View.ld_unit_zero (S := S1x32) hz]
  obtain ⟨e0, e1, e2, e3, e4, e5⟩ := idx_facts t
  funext j
  obtain ⟨p, q, rfl⟩ : ∃ (p : Fin 20000) (q : Fin 32), j = ix2 p q := ⟨j 0, j 1, eq_ix2 j⟩
  show k5_pay1 (iblk5 V c 0 t) (iblk5 V c 1 t) (ix2 p q) = G (V c main_v75) (V c main_v76) (((cfg5.win 2).blk t).view.emb (ix2 p q))
  have hN : t.val < 5 := lt_of_lt_of_eq t.isLt (show cfg5.N = 5 from N_5)
  refine (pay_apply _ _ p q).trans ?_
  have hemb : ((cfg5.win 2).blk t).view.emb (ix2 p q) = ix2 (⟨t.val * 20000 + p.val, by omega⟩ : Fin 100000) q := by
    funext a; apply Fin.ext
    match a with
    | ⟨0, _⟩ => show win5_2.index t (0 : Fin 2) * 20000 + 1 * p.val = t.val * 20000 + p.val; rw [e4]; omega
    | ⟨1, _⟩ => show win5_2.index t (1 : Fin 2) * 32 + 1 * q.val = q.val; rw [e5]; omega
  rw [hemb]
  refine Eq.trans ?_ (G_apply (V c main_v75) (V c main_v76) _ q).symm
  have h0 : iblk5 V c 0 t (ix2 p q) = V c main_v75 (ix2 (⟨t.val * 20000 + p.val, by omega⟩ : Fin 100000) q) := by
    unfold iblk5
    rw [View.read_apply]
    show V c main_v75 _ = _
    refine congrArg (V c main_v75) ?_
    funext a; apply Fin.ext
    match a with
    | ⟨0, _⟩ => show win5_0.index t (0 : Fin 2) * 20000 + 1 * p.val = t.val * 20000 + p.val; rw [e0]; omega
    | ⟨1, _⟩ => show win5_0.index t (1 : Fin 2) * 32 + 1 * q.val = q.val; rw [e1]; omega
  have h1 : iblk5 V c 1 t (ix2 (0 : Fin 1) q) = V c main_v76 (ix2 (0 : Fin 1) q) := by
    unfold iblk5
    rw [View.read_apply]
    show V c main_v76 _ = _
    refine congrArg (V c main_v76) ?_
    funext a; apply Fin.ext
    match a with
    | ⟨0, _⟩ => show win5_1.index t (0 : Fin 2) * 1 + 1 * 0 = 0; rw [e2]
    | ⟨1, _⟩ => show win5_1.index t (1 : Fin 2) * 32 + 1 * q.val = q.val; rw [e3]; omega
  rw [h0, h1]

/-- An index of the array is in point t's block iff each coordinate is in the block's range on its axis. -/
theorem mem_blk (t : Fin cfg5.N) (i : S100000x32.Idx) :
    i ∈ ((cfg5.win 2).blk t).view.set ↔ ∀ a : Fin 2, win5_2.index t a * S20000x32.size a ≤ (i a).val ∧ (i a).val < win5_2.index t a * S20000x32.size a + S20000x32.size a := by
  show i ∈ ((View.whole main_v77).slice (win5_2.rect t)).set ↔ _
  rw [View.set_slice_whole, Rect.mem_set_unit]
  exact Iff.rfl

/-- The array the region leaves: the pointwise expression of the two arrays it found (row r lies in the block r / 20000). -/
theorem final (c : Dev nD) : (dat5 V c).arrAt 2 cfg5.N = G (V c main_v75) (V c main_v76) :=
  (dat5 V c).arrAt_eq_of_cover 2 (G (V c main_v75) (V c main_v76)) (fun t _ => flushed_eq V c t) fun i => by
    have hi0 : (i 0).val < 100000 := (i 0).isLt
    have hi1 : (i 1).val < 32 := (i 1).isLt
    have hN : cfg5.N = 5 := N_5
    let t : Fin cfg5.N := ⟨(i 0).val / 20000, by rw [hN]; omega⟩
    obtain ⟨e0, e1, e2, e3, e4, e5⟩ := idx_facts t
    refine ⟨t, flush5_2 t, ?_⟩
    rw [mem_blk]
    intro a
    match a with
    | ⟨0, _⟩ => show win5_2.index t (0 : Fin 2) * 20000 ≤ (i 0).val ∧ (i 0).val < win5_2.index t (0 : Fin 2) * 20000 + 20000; rw [e4]; show (i 0).val / 20000 * 20000 ≤ (i 0).val ∧ (i 0).val < (i 0).val / 20000 * 20000 + 20000; omega
    | ⟨1, _⟩ => show win5_2.index t (1 : Fin 2) * 32 ≤ (i 1).val ∧ (i 1).val < win5_2.index t (1 : Fin 2) * 32 + 32; rw [e5]; omega

end Cert.KernelIdeal.Post5

end
-- ==== Proof.Layer3.lean ====
/-
  The third layer, boundary by boundary.  Its first region multiplies the layer before's output by the layer's weight
  matrix: the reference's product of its own hidden layer, which that output is.  The stretch of host operations then
  gathers the product's rows along the edges, scales them by the edge weights and adds them into their targets — the
  reference's operations on the same edge arrays, which no boundary since the first has changed — and re-lays the
  bias as a row.  The second region adds the bias row: the reference's broadcast and sum.  So the layer's output array holds the reference's third layer.
-/
import proofs.«141385_j45268955300493_1_alg».proof.Proof.Layer2
import proofs.«141385_j45268955300493_1_alg».proof.Proof.Lin4
import proofs.«141385_j45268955300493_1_alg».proof.Proof.Post5
import proofs.«141385_j45268955300493_1_alg».proof.Proof.Gen.ReferenceIdeal.Read
import Idealize.ShloMosaic.Lib.StableHlo.Run

noncomputable section

namespace Cert.KernelIdeal.Layer3

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's product is the reference's. -/
theorem lin3 : W8 m ρ c (Proc.devRef .tc main_v62) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W8_arr m ρ c 2).trans (Lin4.final (V7 m ρ) c)).trans ?_
  have ea : V7 m ρ c main_v61 = _ := Layer2.out2 m ρ c
  have eb : V7 m ρ c main_arg6 = (m ((c : Thread nD τ).loc main_arg6)) := ((carry7 m ρ c main_arg6 (by decide)).trans (launch m ρ c main_arg6 (by decide)))
  rw [ea, eb]
  rfl

/-- The stretch gathers, scales and adds along the edges as the reference does. -/
theorem agg3 : W9 m ρ c (Proc.devRef .tc main_v75) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Agg.agg_of5 (W8 m ρ c)).trans ?_
  rw [((carry8 m ρ c main_v3 (by decide)).trans (Layer1.src1 m ρ c)), ((carry8 m ρ c main_v7 (by decide)).trans (Layer1.dst1 m ρ c)), ((carry8 m ρ c main_v29 (by decide)).trans (Layer1.wgt1 m ρ c)), lin3 m ρ c]
  rfl

/-- The bias re-laid as a row is the reference's broadcast of it into a row. -/
theorem bias3 : W9 m ρ c (Proc.devRef .tc main_v76) = Cert.ReferenceIdeal.Read.val_main_v80 (F := Ideal) (m ((c : Thread nD τ).loc main_arg7)) := by
  refine (Agg.bias_of5 (W8 m ρ c)).trans ?_
  rw [((carry8 m ρ c main_arg7 (by decide)).trans (launch m ρ c main_arg7 (by decide)))]
  exact Cert.RowOfVector.shapeCast_eq_broadcastInDim _ _ _

/-- The layer's second region leaves the reference's third layer. -/
theorem out3 : W10 m ρ c (Proc.devRef .tc main_v77) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W10_arr m ρ c 2).trans (Post5.final (V9 m ρ) c)).trans ?_
  have ea : V9 m ρ c main_v75 = _ := agg3 m ρ c
  have eb : V9 m ρ c main_v76 = _ := bias3 m ρ c
  rw [ea, eb]
  rfl

end Cert.KernelIdeal.Layer3

end
-- ==== Proof.Lin6.lean ====
/-
  The fourth dense product: rows 20000 t … 20000 t + 19999 of a 100000 × 32 array against the whole 32 × 64 weight
  matrix, written back as the same rows of the product.  The five row blocks tile the 100000 rows, so the array the
  region leaves is the product of the two arrays it found, entry by entry the sum over the shared coordinate
  (the roundings to bf16 on the way into the product are the identity on the extended reals).
-/
import proofs.«141385_j45268955300493_1_alg».proof.Proof.Gen.KernelIdeal.Frame
import proofs.«141385_j45268955300493_1_alg».proof.Proof.Gen.ReferenceIdeal.Read
import proofs.«141385_j45268955300493_1_alg».proof.Proof.LibPlainProduct
import proofs.«141385_j45268955300493_1_alg».proof.Proof.LibHostProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Lin6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a 100000 × 32 array with a 32 × 64 matrix, as the host spells it. -/
abbrev G (A : FVec Ideal S100000x32 .f32) (B : FVec Ideal S32x64 .f32) : FVec Ideal S100000x64 .f32 :=
  Host.dotGeneral Cert.ReferenceIdeal.dot_S100000x32_S32x64_S100000x64_1_0_0_1_n_n none A B

/-- One row block's product at an entry: the sum over the shared coordinate. -/
theorem pay_apply (x0 : Vec Ideal S20000x32 .f32) (x1 : Vec Ideal S32x64 .f32) (p : Fin 20000) (q : Fin 64) :
    k6_pay1 x0 x1 (ix2 p q) = ∑ k : Fin 32, x0 (ix2 p k) * x1 (ix2 k q) := by
  unfold k6_pay1
  try simp only [shapeCast_self]
  exact Cert.PlainProduct.matmul_nn_apply _ none x0 x1 p q

/-- Where the blocks sit: at grid point t the row windows are at block row t, the weight window at the origin. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point t writes back is block t of the product. -/
theorem flushed_eq (c : Dev nD) (t : Fin cfg6.N) :
    (dat6 V c).flushed 2 t = ((cfg6.win 2).blk t).view.read (Elt Ideal) (G (V c main_v77) (V c main_arg8)) := by
  show (cfg6.win 2).cut (grid6.coords t) ((dat6 V c).after 2 t) = _
  rw [after6_2]
  unfold out6_2
  rw [View.canon_unit_zero hz]
  simp only [View.ld_unit_zero (S := S20000x32) hz, View.ld_unit_zero (S := S32x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k6_pay1 (iblk6 V c 0 t) (iblk6 V c 1 t) (ix2 p q) = G (V c main_v77) (V c main_arg8) (((cfg6.win 2).blk t).view.emb (ix2 p q))
  have hN : t.val < 5 := lt_of_lt_of_eq t.isLt (show cfg6.N = 5 from N_6)
  refine (pay_apply _ _ p q).trans ?_
  have hemb : ((cfg6.win 2).blk t).view.emb (ix2 p q) = ix2 (⟨t.val * 20000 + p.val, by omega⟩ : Fin 100000) q := by
    funext a; apply Fin.ext
    match a with
    | ⟨0, _⟩ => show win6_2.index t (0 : Fin 2) * 20000 + 1 * p.val = t.val * 20000 + p.val; rw [e4]; omega
    | ⟨1, _⟩ => show win6_2.index t (1 : Fin 2) * 64 + 1 * q.val = q.val; rw [e5]; omega
  rw [hemb]
  refine Eq.trans ?_ (Cert.HostProduct.dotGeneral_nn_apply _ none (V c main_v77) (V c main_arg8) _ q).symm
  refine Finset.sum_congr rfl fun k _ => ?_
  have h0 : iblk6 V c 0 t (ix2 p k) = V c main_v77 (ix2 (⟨t.val * 20000 + p.val, by omega⟩ : Fin 100000) k) := by
    unfold iblk6
    rw [View.read_apply]
    show V c main_v77 _ = _
    refine congrArg (V c main_v77) ?_
    funext a; apply Fin.ext
    match a with
    | ⟨0, _⟩ => show win6_0.index t (0 : Fin 2) * 20000 + 1 * p.val = t.val * 20000 + p.val; rw [e0]; omega
    | ⟨1, _⟩ => show win6_0.index t (1 : Fin 2) * 32 + 1 * k.val = k.val; rw [e1]; omega
  have h1 : iblk6 V c 1 t (ix2 k q) = V c main_arg8 (ix2 k q) := by
    unfold iblk6
    rw [View.read_apply]
    show V c main_arg8 _ = _
    refine congrArg (V c main_arg8) ?_
    funext a; apply Fin.ext
    match a with
    | ⟨0, _⟩ => show win6_1.index t (0 : Fin 2) * 32 + 1 * k.val = k.val; rw [e2]; omega
    | ⟨1, _⟩ => show win6_1.index t (1 : Fin 2) * 64 + 1 * q.val = q.val; rw [e3]; omega
  rw [h0, h1]

/-- An index of the array is in point t's block iff each coordinate is in the block's range on its axis. -/
theorem mem_blk (t : Fin cfg6.N) (i : S100000x64.Idx) :
    i ∈ ((cfg6.win 2).blk t).view.set ↔ ∀ a : Fin 2, win6_2.index t a * S20000x64.size a ≤ (i a).val ∧ (i a).val < win6_2.index t a * S20000x64.size a + S20000x64.size a := by
  show i ∈ ((View.whole main_v78).slice (win6_2.rect t)).set ↔ _
  rw [View.set_slice_whole, Rect.mem_set_unit]
  exact Iff.rfl

/-- The array the region leaves: the product of the two arrays it found (row r lies in the block r / 20000). -/
theorem final (c : Dev nD) : (dat6 V c).arrAt 2 cfg6.N = G (V c main_v77) (V c main_arg8) :=
  (dat6 V c).arrAt_eq_of_cover 2 (G (V c main_v77) (V c main_arg8)) (fun t _ => flushed_eq V c t) fun i => by
    have hi0 : (i 0).val < 100000 := (i 0).isLt
    have hi1 : (i 1).val < 64 := (i 1).isLt
    have hN : cfg6.N = 5 := N_6
    let t : Fin cfg6.N := ⟨(i 0).val / 20000, by rw [hN]; omega⟩
    obtain ⟨e0, e1, e2, e3, e4, e5⟩ := idx_facts t
    refine ⟨t, flush6_2 t, ?_⟩
    rw [mem_blk]
    intro a
    match a with
    | ⟨0, _⟩ => show win6_2.index t (0 : Fin 2) * 20000 ≤ (i 0).val ∧ (i 0).val < win6_2.index t (0 : Fin 2) * 20000 + 20000; rw [e4]; show (i 0).val / 20000 * 20000 ≤ (i 0).val ∧ (i 0).val < (i 0).val / 20000 * 20000 + 20000; omega
    | ⟨1, _⟩ => show win6_2.index t (1 : Fin 2) * 64 ≤ (i 1).val ∧ (i 1).val < win6_2.index t (1 : Fin 2) * 64 + 64; rw [e5]; omega

end Cert.KernelIdeal.Lin6

end
-- ==== Proof.Post7.lean ====
/-
  The fourth bias pass: rows 20000 t … 20000 t + 19999 of the aggregated features, plus the bias row repeated down the rows, then the maximum with zero.
  The five row blocks tile the 100000 rows, so the array the region leaves is that pointwise expression of the two
  arrays it found.
-/
import proofs.«141385_j45268955300493_1_alg».proof.Proof.Gen.KernelIdeal.Frame
import proofs.«141385_j45268955300493_1_alg».proof.Proof.Gen.ReferenceIdeal.Read
import proofs.«141385_j45268955300493_1_alg».proof.Proof.LibRowsProduct
import proofs.«141385_j45268955300493_1_alg».proof.Proof.LibHostBroadcast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Post7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A 100000 × 64 array plus a 1 × 64 row repeated down the rows, then the maximum with zero, as the host spells it. -/
abbrev G (A : FVec Ideal S100000x64 .f32) (B : FVec Ideal S1x64 .f32) : FVec Ideal S100000x64 .f32 :=
  maximumf (addf A (broadcastInDim S100000x64 ![0, 1] Cert.ReferenceIdeal.Gen.bcast_S1x64_S100000x64_0_1 B))
    (broadcastInDim S100000x64 ![] Cert.ReferenceIdeal.Gen.bcast_S_S100000x64 (constant S_ .f32 0x00000000#32))

/-- The host's spelling read at an entry. -/
theorem G_apply (A : FVec Ideal S100000x64 .f32) (B : FVec Ideal S1x64 .f32) (p : Fin 100000) (q : Fin 64) :
    G A B (ix2 p q) = max (A (ix2 p q) + B (ix2 (0 : Fin 1) q)) (Ideal.ofBits .f32 0x00000000#32) := by
  show max (A (ix2 p q) + broadcastInDim S100000x64 ![0, 1] _ B (ix2 p q))
    (broadcastInDim S100000x64 ![] _ (constant (F := Ideal) S_ .f32 0x00000000#32) (ix2 p q)) = _
  rw [broadcastInDim_apply ![0, 1] _ B (ix2 p q) (ix2 (0 : Fin 1) q) (fun ax => by
    match ax with
    | ⟨0, _⟩ => show (0 : ℕ) = if (1 : ℕ) = 1 then 0 else p.val; rw [if_pos rfl]
    | ⟨1, _⟩ => show q.val = if (64 : ℕ) = 1 then 0 else q.val; rw [if_neg (by decide)]),
    Cert.HostBroadcast.scalar_apply]
  rfl

/-- One row block of the pass at an entry. -/
theorem pay_apply (x0 : Vec Ideal S20000x64 .f32) (x1 : Vec Ideal S1x64 .f32) (p : Fin 20000) (q : Fin 64) :
    k7_pay1 x0 x1 (ix2 p q) = max (x0 (ix2 p q) + x1 (ix2 (0 : Fin 1) q)) (Ideal.ofBits .f32 0x00000000#32) := by
  unfold k7_pay1
  simp only [shapeCast_self]
  show max (x0 (ix2 p q) + broadcastTo S20000x64 x1 _ (ix2 p q)) _ = _
  rw [Cert.RowsProduct.broadcastTo_1n_an_apply]
  rfl

/-- Where the blocks sit: at grid point t the row windows are at block row t, the bias window at the origin. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What grid point t writes back is block t of the pointwise expression. -/
theorem flushed_eq (c : Dev nD) (t : Fin cfg7.N) :
    (dat7 V c).flushed 2 t = ((cfg7.win 2).blk t).view.read (Elt Ideal) (G (V c main_v91) (V c main_v92)) := by
  show (cfg7.win 2).cut (grid7.coords t) ((dat7 V c).after 2 t) = _
  rw [after7_2]
  unfold out7_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k7_pay1 (iblk7 V c 0 t) (iblk7 V c 1 t) (ix2 p q) = G (V c main_v91) (V c main_v92) (((cfg7.win 2).blk t).view.emb (ix2 p q))
  have hN : t.val < 5 := lt_of_lt_of_eq t.isLt (show cfg7.N = 5 from N_7)
  refine (pay_apply _ _ p q).trans ?_
  have hemb : ((cfg7.win 2).blk t).view.emb (ix2 p q) = ix2 (⟨t.val * 20000 + p.val, by omega⟩ : Fin 100000) q := by
    funext a; apply Fin.ext
    match a with
    | ⟨0, _⟩ => show win7_2.index t (0 : Fin 2) * 20000 + 1 * p.val = t.val * 20000 + p.val; rw [e4]; omega
    | ⟨1, _⟩ => show win7_2.index t (1 : Fin 2) * 64 + 1 * q.val = q.val; rw [e5]; omega
  rw [hemb]
  refine Eq.trans ?_ (G_apply (V c main_v91) (V c main_v92) _ q).symm
  have h0 : iblk7 V c 0 t (ix2 p q) = V c main_v91 (ix2 (⟨t.val * 20000 + p.val, by omega⟩ : Fin 100000) q) := by
    unfold iblk7
    rw [View.read_apply]
    show V c main_v91 _ = _
    refine congrArg (V c main_v91) ?_
    funext a; apply Fin.ext
    match a with
    | ⟨0, _⟩ => show win7_0.index t (0 : Fin 2) * 20000 + 1 * p.val = t.val * 20000 + p.val; rw [e0]; omega
    | ⟨1, _⟩ => show win7_0.index t (1 : Fin 2) * 64 + 1 * q.val = q.val; rw [e1]; omega
  have h1 : iblk7 V c 1 t (ix2 (0 : Fin 1) q) = V c main_v92 (ix2 (0 : Fin 1) q) := by
    unfold iblk7
    rw [View.read_apply]
    show V c main_v92 _ = _
    refine congrArg (V c main_v92) ?_
    funext a; apply Fin.ext
    match a with
    | ⟨0, _⟩ => show win7_1.index t (0 : Fin 2) * 1 + 1 * 0 = 0; rw [e2]
    | ⟨1, _⟩ => show win7_1.index t (1 : Fin 2) * 64 + 1 * q.val = q.val; rw [e3]; omega
  rw [h0, h1]

/-- An index of the array is in point t's block iff each coordinate is in the block's range on its axis. -/
theorem mem_blk (t : Fin cfg7.N) (i : S100000x64.Idx) :
    i ∈ ((cfg7.win 2).blk t).view.set ↔ ∀ a : Fin 2, win7_2.index t a * S20000x64.size a ≤ (i a).val ∧ (i a).val < win7_2.index t a * S20000x64.size a + S20000x64.size a := by
  show i ∈ ((View.whole main_v93).slice (win7_2.rect t)).set ↔ _
  rw [View.set_slice_whole, Rect.mem_set_unit]
  exact Iff.rfl

/-- The array the region leaves: the pointwise expression of the two arrays it found (row r lies in the block r / 20000). -/
theorem final (c : Dev nD) : (dat7 V c).arrAt 2 cfg7.N = G (V c main_v91) (V c main_v92) :=
  (dat7 V c).arrAt_eq_of_cover 2 (G (V c main_v91) (V c main_v92)) (fun t _ => flushed_eq V c t) fun i => by
    have hi0 : (i 0).val < 100000 := (i 0).isLt
    have hi1 : (i 1).val < 64 := (i 1).isLt
    have hN : cfg7.N = 5 := N_7
    let t : Fin cfg7.N := ⟨(i 0).val / 20000, by rw [hN]; omega⟩
    obtain ⟨e0, e1, e2, e3, e4, e5⟩ := idx_facts t
    refine ⟨t, flush7_2 t, ?_⟩
    rw [mem_blk]
    intro a
    match a with
    | ⟨0, _⟩ => show win7_2.index t (0 : Fin 2) * 20000 ≤ (i 0).val ∧ (i 0).val < win7_2.index t (0 : Fin 2) * 20000 + 20000; rw [e4]; show (i 0).val / 20000 * 20000 ≤ (i 0).val ∧ (i 0).val < (i 0).val / 20000 * 20000 + 20000; omega
    | ⟨1, _⟩ => show win7_2.index t (1 : Fin 2) * 64 ≤ (i 1).val ∧ (i 1).val < win7_2.index t (1 : Fin 2) * 64 + 64; rw [e5]; omega

end Cert.KernelIdeal.Post7

end
-- ==== Proof.Layer4.lean ====
/-
  The fourth layer, boundary by boundary.  Its first region multiplies the layer before's output by the layer's weight
  matrix: the reference's product of its own hidden layer, which that output is.  The stretch of host operations then
  gathers the product's rows along the edges, scales them by the edge weights and adds them into their targets — the
  reference's operations on the same edge arrays, which no boundary since the first has changed — and re-lays the
  bias as a row.  The second region adds the bias row and takes the maximum with zero: the reference's broadcast, sum and rectifier.  So the layer's output array holds the reference's fourth layer.
-/
import proofs.«141385_j45268955300493_1_alg».proof.Proof.Layer3
import proofs.«141385_j45268955300493_1_alg».proof.Proof.Lin6
import proofs.«141385_j45268955300493_1_alg».proof.Proof.Post7
import proofs.«141385_j45268955300493_1_alg».proof.Proof.Gen.ReferenceIdeal.Read
import Idealize.ShloMosaic.Lib.StableHlo.Run

noncomputable section

namespace Cert.KernelIdeal.Layer4

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's product is the reference's. -/
theorem lin4 : W11 m ρ c (Proc.devRef .tc main_v78) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W11_arr m ρ c 2).trans (Lin6.final (V10 m ρ) c)).trans ?_
  have ea : V10 m ρ c main_v77 = _ := Layer3.out3 m ρ c
  have eb : V10 m ρ c main_arg8 = (m ((c : Thread nD τ).loc main_arg8)) := ((carry10 m ρ c main_arg8 (by decide)).trans (launch m ρ c main_arg8 (by decide)))
  rw [ea, eb]
  rfl

/-- The stretch gathers, scales and adds along the edges as the reference does. -/
theorem agg4 : W12 m ρ c (Proc.devRef .tc main_v91) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Agg.agg_of7 (W11 m ρ c)).trans ?_
  rw [((carry11 m ρ c main_v3 (by decide)).trans (Layer1.src1 m ρ c)), ((carry11 m ρ c main_v7 (by decide)).trans (Layer1.dst1 m ρ c)), ((carry11 m ρ c main_v29 (by decide)).trans (Layer1.wgt1 m ρ c)), lin4 m ρ c]
  rfl

/-- The bias re-laid as a row is the reference's broadcast of it into a row. -/
theorem bias4 : W12 m ρ c (Proc.devRef .tc main_v92) = Cert.ReferenceIdeal.Read.val_main_v97 (F := Ideal) (m ((c : Thread nD τ).loc main_arg9)) := by
  refine (Agg.bias_of7 (W11 m ρ c)).trans ?_
  rw [((carry11 m ρ c main_arg9 (by decide)).trans (launch m ρ c main_arg9 (by decide)))]
  exact Cert.RowOfVector.shapeCast_eq_broadcastInDim _ _ _

/-- The layer's second region leaves the reference's fourth layer. -/
theorem out4 : W13 m ρ c (Proc.devRef .tc main_v93) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W13_arr m ρ c 2).trans (Post7.final (V12 m ρ) c)).trans ?_
  have ea : V12 m ρ c main_v91 = _ := agg4 m ρ c
  have eb : V12 m ρ c main_v92 = _ := bias4 m ρ c
  rw [ea, eb]
  rfl

end Cert.KernelIdeal.Layer4

end
-- ==== Proof.Lin8.lean ====
/-
  The fifth dense product: rows 20000 t … 20000 t + 19999 of a 100000 × 64 array against the whole 64 × 64 weight
  matrix, written back as the same rows of the product.  The five row blocks tile the 100000 rows, so the array the
  region leaves is the product of the two arrays it found, entry by entry the sum over the shared coordinate
  (the roundings to bf16 on the way into the product are the identity on the extended reals).
-/
import proofs.«141385_j45268955300493_1_alg».proof.Proof.Gen.KernelIdeal.Frame
import proofs.«141385_j45268955300493_1_alg».proof.Proof.Gen.ReferenceIdeal.Read
import proofs.«141385_j45268955300493_1_alg».proof.Proof.LibPlainProduct
import proofs.«141385_j45268955300493_1_alg».proof.Proof.LibHostProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Lin8

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a 100000 × 64 array with a 64 × 64 matrix, as the host spells it. -/
abbrev G (A : FVec Ideal S100000x64 .f32) (B : FVec Ideal S64x64 .f32) : FVec Ideal S100000x64 .f32 :=
  Host.dotGeneral Cert.ReferenceIdeal.dot_S100000x64_S64x64_S100000x64_1_0_0_1_n_n none A B

/-- One row block's product at an entry: the sum over the shared coordinate. -/
theorem pay_apply (x0 : Vec Ideal S20000x64 .f32) (x1 : Vec Ideal S64x64 .f32) (p : Fin 20000) (q : Fin 64) :
    k8_pay1 x0 x1 (ix2 p q) = ∑ k : Fin 64, x0 (ix2 p k) * x1 (ix2 k q) := by
  unfold k8_pay1
  try simp only [shapeCast_self]
  exact Cert.PlainProduct.matmul_nn_apply _ none x0 x1 p q

/-- Where the blocks sit: at grid point t the row windows are at block row t, the weight window at the origin. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What grid point t writes back is block t of the product. -/
theorem flushed_eq (c : Dev nD) (t : Fin cfg8.N) :
    (dat8 V c).flushed 2 t = ((cfg8.win 2).blk t).view.read (Elt Ideal) (G (V c main_v93) (V c main_arg10)) := by
  show (cfg8.win 2).cut (grid8.coords t) ((dat8 V c).after 2 t) = _
  rw [after8_2]
  unfold out8_2
  rw [View.canon_unit_zero hz]
  simp only [View.ld_unit_zero (S := S20000x64) hz, View.ld_unit_zero (S := S64x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k8_pay1 (iblk8 V c 0 t) (iblk8 V c 1 t) (ix2 p q) = G (V c main_v93) (V c main_arg10) (((cfg8.win 2).blk t).view.emb (ix2 p q))
  have hN : t.val < 5 := lt_of_lt_of_eq t.isLt (show cfg8.N = 5 from N_8)
  refine (pay_apply _ _ p q).trans ?_
  have hemb : ((cfg8.win 2).blk t).view.emb (ix2 p q) = ix2 (⟨t.val * 20000 + p.val, by omega⟩ : Fin 100000) q := by
    funext a; apply Fin.ext
    match a with
    | ⟨0, _⟩ => show win8_2.index t (0 : Fin 2) * 20000 + 1 * p.val = t.val * 20000 + p.val; rw [e4]; omega
    | ⟨1, _⟩ => show win8_2.index t (1 : Fin 2) * 64 + 1 * q.val = q.val; rw [e5]; omega
  rw [hemb]
  refine Eq.trans ?_ (Cert.HostProduct.dotGeneral_nn_apply _ none (V c main_v93) (V c main_arg10) _ q).symm
  refine Finset.sum_congr rfl fun k _ => ?_
  have h0 : iblk8 V c 0 t (ix2 p k) = V c main_v93 (ix2 (⟨t.val * 20000 + p.val, by omega⟩ : Fin 100000) k) := by
    unfold iblk8
    rw [View.read_apply]
    show V c main_v93 _ = _
    refine congrArg (V c main_v93) ?_
    funext a; apply Fin.ext
    match a with
    | ⟨0, _⟩ => show win8_0.index t (0 : Fin 2) * 20000 + 1 * p.val = t.val * 20000 + p.val; rw [e0]; omega
    | ⟨1, _⟩ => show win8_0.index t (1 : Fin 2) * 64 + 1 * k.val = k.val; rw [e1]; omega
  have h1 : iblk8 V c 1 t (ix2 k q) = V c main_arg10 (ix2 k q) := by
    unfold iblk8
    rw [View.read_apply]
    show V c main_arg10 _ = _
    refine congrArg (V c main_arg10) ?_
    funext a; apply Fin.ext
    match a with
    | ⟨0, _⟩ => show win8_1.index t (0 : Fin 2) * 64 + 1 * k.val = k.val; rw [e2]; omega
    | ⟨1, _⟩ => show win8_1.index t (1 : Fin 2) * 64 + 1 * q.val = q.val; rw [e3]; omega
  rw [h0, h1]

/-- An index of the array is in point t's block iff each coordinate is in the block's range on its axis. -/
theorem mem_blk (t : Fin cfg8.N) (i : S100000x64.Idx) :
    i ∈ ((cfg8.win 2).blk t).view.set ↔ ∀ a : Fin 2, win8_2.index t a * S20000x64.size a ≤ (i a).val ∧ (i a).val < win8_2.index t a * S20000x64.size a + S20000x64.size a := by
  show i ∈ ((View.whole main_v94).slice (win8_2.rect t)).set ↔ _
  rw [View.set_slice_whole, Rect.mem_set_unit]
  exact Iff.rfl

/-- The array the region leaves: the product of the two arrays it found (row r lies in the block r / 20000). -/
theorem final (c : Dev nD) : (dat8 V c).arrAt 2 cfg8.N = G (V c main_v93) (V c main_arg10) :=
  (dat8 V c).arrAt_eq_of_cover 2 (G (V c main_v93) (V c main_arg10)) (fun t _ => flushed_eq V c t) fun i => by
    have hi0 : (i 0).val < 100000 := (i 0).isLt
    have hi1 : (i 1).val < 64 := (i 1).isLt
    have hN : cfg8.N = 5 := N_8
    let t : Fin cfg8.N := ⟨(i 0).val / 20000, by rw [hN]; omega⟩
    obtain ⟨e0, e1, e2, e3, e4, e5⟩ := idx_facts t
    refine ⟨t, flush8_2 t, ?_⟩
    rw [mem_blk]
    intro a
    match a with
    | ⟨0, _⟩ => show win8_2.index t (0 : Fin 2) * 20000 ≤ (i 0).val ∧ (i 0).val < win8_2.index t (0 : Fin 2) * 20000 + 20000; rw [e4]; show (i 0).val / 20000 * 20000 ≤ (i 0).val ∧ (i 0).val < (i 0).val / 20000 * 20000 + 20000; omega
    | ⟨1, _⟩ => show win8_2.index t (1 : Fin 2) * 64 ≤ (i 1).val ∧ (i 1).val < win8_2.index t (1 : Fin 2) * 64 + 64; rw [e5]; omega

end Cert.KernelIdeal.Lin8

end
-- ==== Proof.Post9.lean ====
/-
  The fifth bias pass: rows 20000 t … 20000 t + 19999 of the aggregated features, plus the bias row repeated down the rows, then the maximum with zero.
  The five row blocks tile the 100000 rows, so the array the region leaves is that pointwise expression of the two
  arrays it found.
-/
import proofs.«141385_j45268955300493_1_alg».proof.Proof.Gen.KernelIdeal.Frame
import proofs.«141385_j45268955300493_1_alg».proof.Proof.Gen.ReferenceIdeal.Read
import proofs.«141385_j45268955300493_1_alg».proof.Proof.LibRowsProduct
import proofs.«141385_j45268955300493_1_alg».proof.Proof.LibHostBroadcast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Post9

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A 100000 × 64 array plus a 1 × 64 row repeated down the rows, then the maximum with zero, as the host spells it. -/
abbrev G (A : FVec Ideal S100000x64 .f32) (B : FVec Ideal S1x64 .f32) : FVec Ideal S100000x64 .f32 :=
  maximumf (addf A (broadcastInDim S100000x64 ![0, 1] Cert.ReferenceIdeal.Gen.bcast_S1x64_S100000x64_0_1 B))
    (broadcastInDim S100000x64 ![] Cert.ReferenceIdeal.Gen.bcast_S_S100000x64 (constant S_ .f32 0x00000000#32))

/-- The host's spelling read at an entry. -/
theorem G_apply (A : FVec Ideal S100000x64 .f32) (B : FVec Ideal S1x64 .f32) (p : Fin 100000) (q : Fin 64) :
    G A B (ix2 p q) = max (A (ix2 p q) + B (ix2 (0 : Fin 1) q)) (Ideal.ofBits .f32 0x00000000#32) := by
  show max (A (ix2 p q) + broadcastInDim S100000x64 ![0, 1] _ B (ix2 p q))
    (broadcastInDim S100000x64 ![] _ (constant (F := Ideal) S_ .f32 0x00000000#32) (ix2 p q)) = _
  rw [broadcastInDim_apply ![0, 1] _ B (ix2 p q) (ix2 (0 : Fin 1) q) (fun ax => by
    match ax with
    | ⟨0, _⟩ => show (0 : ℕ) = if (1 : ℕ) = 1 then 0 else p.val; rw [if_pos rfl]
    | ⟨1, _⟩ => show q.val = if (64 : ℕ) = 1 then 0 else q.val; rw [if_neg (by decide)]),
    Cert.HostBroadcast.scalar_apply]
  rfl

/-- One row block of the pass at an entry. -/
theorem pay_apply (x0 : Vec Ideal S20000x64 .f32) (x1 : Vec Ideal S1x64 .f32) (p : Fin 20000) (q : Fin 64) :
    k9_pay1 x0 x1 (ix2 p q) = max (x0 (ix2 p q) + x1 (ix2 (0 : Fin 1) q)) (Ideal.ofBits .f32 0x00000000#32) := by
  unfold k9_pay1
  simp only [shapeCast_self]
  show max (x0 (ix2 p q) + broadcastTo S20000x64 x1 _ (ix2 p q)) _ = _
  rw [Cert.RowsProduct.broadcastTo_1n_an_apply]
  rfl

/-- Where the blocks sit: at grid point t the row windows are at block row t, the bias window at the origin. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What grid point t writes back is block t of the pointwise expression. -/
theorem flushed_eq (c : Dev nD) (t : Fin cfg9.N) :
    (dat9 V c).flushed 2 t = ((cfg9.win 2).blk t).view.read (Elt Ideal) (G (V c main_v107) (V c main_v108)) := by
  show (cfg9.win 2).cut (grid9.coords t) ((dat9 V c).after 2 t) = _
  rw [after9_2]
  unfold out9_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k9_pay1 (iblk9 V c 0 t) (iblk9 V c 1 t) (ix2 p q) = G (V c main_v107) (V c main_v108) (((cfg9.win 2).blk t).view.emb (ix2 p q))
  have hN : t.val < 5 := lt_of_lt_of_eq t.isLt (show cfg9.N = 5 from N_9)
  refine (pay_apply _ _ p q).trans ?_
  have hemb : ((cfg9.win 2).blk t).view.emb (ix2 p q) = ix2 (⟨t.val * 20000 + p.val, by omega⟩ : Fin 100000) q := by
    funext a; apply Fin.ext
    match a with
    | ⟨0, _⟩ => show win9_2.index t (0 : Fin 2) * 20000 + 1 * p.val = t.val * 20000 + p.val; rw [e4]; omega
    | ⟨1, _⟩ => show win9_2.index t (1 : Fin 2) * 64 + 1 * q.val = q.val; rw [e5]; omega
  rw [hemb]
  refine Eq.trans ?_ (G_apply (V c main_v107) (V c main_v108) _ q).symm
  have h0 : iblk9 V c 0 t (ix2 p q) = V c main_v107 (ix2 (⟨t.val * 20000 + p.val, by omega⟩ : Fin 100000) q) := by
    unfold iblk9
    rw [View.read_apply]
    show V c main_v107 _ = _
    refine congrArg (V c main_v107) ?_
    funext a; apply Fin.ext
    match a with
    | ⟨0, _⟩ => show win9_0.index t (0 : Fin 2) * 20000 + 1 * p.val = t.val * 20000 + p.val; rw [e0]; omega
    | ⟨1, _⟩ => show win9_0.index t (1 : Fin 2) * 64 + 1 * q.val = q.val; rw [e1]; omega
  have h1 : iblk9 V c 1 t (ix2 (0 : Fin 1) q) = V c main_v108 (ix2 (0 : Fin 1) q) := by
    unfold iblk9
    rw [View.read_apply]
    show V c main_v108 _ = _
    refine congrArg (V c main_v108) ?_
    funext a; apply Fin.ext
    match a with
    | ⟨0, _⟩ => show win9_1.index t (0 : Fin 2) * 1 + 1 * 0 = 0; rw [e2]
    | ⟨1, _⟩ => show win9_1.index t (1 : Fin 2) * 64 + 1 * q.val = q.val; rw [e3]; omega
  rw [h0, h1]

/-- An index of the array is in point t's block iff each coordinate is in the block's range on its axis. -/
theorem mem_blk (t : Fin cfg9.N) (i : S100000x64.Idx) :
    i ∈ ((cfg9.win 2).blk t).view.set ↔ ∀ a : Fin 2, win9_2.index t a * S20000x64.size a ≤ (i a).val ∧ (i a).val < win9_2.index t a * S20000x64.size a + S20000x64.size a := by
  show i ∈ ((View.whole main_v109).slice (win9_2.rect t)).set ↔ _
  rw [View.set_slice_whole, Rect.mem_set_unit]
  exact Iff.rfl

/-- The array the region leaves: the pointwise expression of the two arrays it found (row r lies in the block r / 20000). -/
theorem final (c : Dev nD) : (dat9 V c).arrAt 2 cfg9.N = G (V c main_v107) (V c main_v108) :=
  (dat9 V c).arrAt_eq_of_cover 2 (G (V c main_v107) (V c main_v108)) (fun t _ => flushed_eq V c t) fun i => by
    have hi0 : (i 0).val < 100000 := (i 0).isLt
    have hi1 : (i 1).val < 64 := (i 1).isLt
    have hN : cfg9.N = 5 := N_9
    let t : Fin cfg9.N := ⟨(i 0).val / 20000, by rw [hN]; omega⟩
    obtain ⟨e0, e1, e2, e3, e4, e5⟩ := idx_facts t
    refine ⟨t, flush9_2 t, ?_⟩
    rw [mem_blk]
    intro a
    match a with
    | ⟨0, _⟩ => show win9_2.index t (0 : Fin 2) * 20000 ≤ (i 0).val ∧ (i 0).val < win9_2.index t (0 : Fin 2) * 20000 + 20000; rw [e4]; show (i 0).val / 20000 * 20000 ≤ (i 0).val ∧ (i 0).val < (i 0).val / 20000 * 20000 + 20000; omega
    | ⟨1, _⟩ => show win9_2.index t (1 : Fin 2) * 64 ≤ (i 1).val ∧ (i 1).val < win9_2.index t (1 : Fin 2) * 64 + 64; rw [e5]; omega

end Cert.KernelIdeal.Post9

end
-- ==== Proof.Layer5.lean ====
/-
  The fifth layer, boundary by boundary.  Its first region multiplies the layer before's output by the layer's weight
  matrix: the reference's product of its own hidden layer, which that output is.  The stretch of host operations then
  gathers the product's rows along the edges, scales them by the edge weights and adds them into their targets — the
  reference's operations on the same edge arrays, which no boundary since the first has changed — and re-lays the
  bias as a row.  The second region adds the bias row and takes the maximum with zero: the reference's broadcast, sum and rectifier.  So the layer's output array holds the reference's fifth layer.
-/
import proofs.«141385_j45268955300493_1_alg».proof.Proof.Layer4
import proofs.«141385_j45268955300493_1_alg».proof.Proof.Lin8
import proofs.«141385_j45268955300493_1_alg».proof.Proof.Post9
import proofs.«141385_j45268955300493_1_alg».proof.Proof.Gen.ReferenceIdeal.Read
import Idealize.ShloMosaic.Lib.StableHlo.Run

noncomputable section

namespace Cert.KernelIdeal.Layer5

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's product is the reference's. -/
theorem lin5 : W14 m ρ c (Proc.devRef .tc main_v94) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W14_arr m ρ c 2).trans (Lin8.final (V13 m ρ) c)).trans ?_
  have ea : V13 m ρ c main_v93 = _ := Layer4.out4 m ρ c
  have eb : V13 m ρ c main_arg10 = (m ((c : Thread nD τ).loc main_arg10)) := ((carry13 m ρ c main_arg10 (by decide)).trans (launch m ρ c main_arg10 (by decide)))
  rw [ea, eb]
  rfl

/-- The stretch gathers, scales and adds along the edges as the reference does. -/
theorem agg5 : W15 m ρ c (Proc.devRef .tc main_v107) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Agg.agg_of9 (W14 m ρ c)).trans ?_
  rw [((carry14 m ρ c main_v3 (by decide)).trans (Layer1.src1 m ρ c)), ((carry14 m ρ c main_v7 (by decide)).trans (Layer1.dst1 m ρ c)), ((carry14 m ρ c main_v29 (by decide)).trans (Layer1.wgt1 m ρ c)), lin5 m ρ c]
  rfl

/-- The bias re-laid as a row is the reference's broadcast of it into a row. -/
theorem bias5 : W15 m ρ c (Proc.devRef .tc main_v108) = Cert.ReferenceIdeal.Read.val_main_v115 (F := Ideal) (m ((c : Thread nD τ).loc main_arg11)) := by
  refine (Agg.bias_of9 (W14 m ρ c)).trans ?_
  rw [((carry14 m ρ c main_arg11 (by decide)).trans (launch m ρ c main_arg11 (by decide)))]
  exact Cert.RowOfVector.shapeCast_eq_broadcastInDim _ _ _

/-- The layer's second region leaves the reference's fifth layer. -/
theorem out5 : W16 m ρ c (Proc.devRef .tc main_v109) = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W16_arr m ρ c 2).trans (Post9.final (V15 m ρ) c)).trans ?_
  have ea : V15 m ρ c main_v107 = _ := agg5 m ρ c
  have eb : V15 m ρ c main_v108 = _ := bias5 m ρ c
  rw [ea, eb]
  rfl

end Cert.KernelIdeal.Layer5

end
-- ==== Proof.Lin10.lean ====
/-
  The sixth dense product: rows 20000 t … 20000 t + 19999 of a 100000 × 64 array against the whole 64 × 64 weight
  matrix, written back as the same rows of the product.  The five row blocks tile the 100000 rows, so the array the
  region leaves is the product of the two arrays it found, entry by entry the sum over the shared coordinate
  (the roundings to bf16 on the way into the product are the identity on the extended reals).
-/
import proofs.«141385_j45268955300493_1_alg».proof.Proof.Gen.KernelIdeal.Frame
import proofs.«141385_j45268955300493_1_alg».proof.Proof.Gen.ReferenceIdeal.Read
import proofs.«141385_j45268955300493_1_alg».proof.Proof.LibPlainProduct
import proofs.«141385_j45268955300493_1_alg».proof.Proof.LibHostProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Lin10

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a 100000 × 64 array with a 64 × 64 matrix, as the host spells it. -/
abbrev G (A : FVec Ideal S100000x64 .f32) (B : FVec Ideal S64x64 .f32) : FVec Ideal S100000x64 .f32 :=
  Host.dotGeneral Cert.ReferenceIdeal.dot_S100000x64_S64x64_S100000x64_1_0_0_1_n_n none A B

/-- One row block's product at an entry: the sum over the shared coordinate. -/
theorem pay_apply (x0 : Vec Ideal S20000x64 .f32) (x1 : Vec Ideal S64x64 .f32) (p : Fin 20000) (q : Fin 64) :
    k10_pay1 x0 x1 (ix2 p q) = ∑ k : Fin 64, x0 (ix2 p k) * x1 (ix2 k q) := by
  unfold k10_pay1
  try simp only [shapeCast_self]
  exact Cert.PlainProduct.matmul_nn_apply _ none x0 x1 p q

/-- Where the blocks sit: at grid point t the row windows are at block row t, the weight window at the origin. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What grid point t writes back is block t of the product. -/
theorem flushed_eq (c : Dev nD) (t : Fin cfg10.N) :
    (dat10 V c).flushed 2 t = ((cfg10.win 2).blk t).view.read (Elt Ideal) (G (V c main_v109) (V c main_arg12)) := by
  show (cfg10.win 2).cut (grid10.coords t) ((dat10 V c).after 2 t) = _
  rw [after10_2]
  unfold out10_2
  rw [View.canon_unit_zero hz]
  simp only [View.ld_unit_zero (S := S20000x64) hz, View.ld_unit_zero (S := S64x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k10_pay1 (iblk10 V c 0 t) (iblk10 V c 1 t) (ix2 p q) = G (V c main_v109) (V c main_arg12) (((cfg10.win 2).blk t).view.emb (ix2 p q))
  have hN : t.val < 5 := lt_of_lt_of_eq t.isLt (show cfg10.N = 5 from N_10)
  refine (pay_apply _ _ p q).trans ?_
  have hemb : ((cfg10.win 2).blk t).view.emb (ix2 p q) = ix2 (⟨t.val * 20000 + p.val, by omega⟩ : Fin 100000) q := by
    funext a; apply Fin.ext
    match a with
    | ⟨0, _⟩ => show win10_2.index t (0 : Fin 2) * 20000 + 1 * p.val = t.val * 20000 + p.val; rw [e4]; omega
    | ⟨1, _⟩ => show win10_2.index t (1 : Fin 2) * 64 + 1 * q.val = q.val; rw [e5]; omega
  rw [hemb]
  refine Eq.trans ?_ (Cert.HostProduct.dotGeneral_nn_apply _ none (V c main_v109) (V c main_arg12) _ q).symm
  refine Finset.sum_congr rfl fun k _ => ?_
  have h0 : iblk10 V c 0 t (ix2 p k) = V c main_v109 (ix2 (⟨t.val * 20000 + p.val, by omega⟩ : Fin 100000) k) := by
    unfold iblk10
    rw [View.read_apply]
    show V c main_v109 _ = _
    refine congrArg (V c main_v109) ?_
    funext a; apply Fin.ext
    match a with
    | ⟨0, _⟩ => show win10_0.index t (0 : Fin 2) * 20000 + 1 * p.val = t.val * 20000 + p.val; rw [e0]; omega
    | ⟨1, _⟩ => show win10_0.index t (1 : Fin 2) * 64 + 1 * k.val = k.val; rw [e1]; omega
  have h1 : iblk10 V c 1 t (ix2 k q) = V c main_arg12 (ix2 k q) := by
    unfold iblk10
    rw [View.read_apply]
    show V c main_arg12 _ = _
    refine congrArg (V c main_arg12) ?_
    funext a; apply Fin.ext
    match a with
    | ⟨0, _⟩ => show win10_1.index t (0 : Fin 2) * 64 + 1 * k.val = k.val; rw [e2]; omega
    | ⟨1, _⟩ => show win10_1.index t (1 : Fin 2) * 64 + 1 * q.val = q.val; rw [e3]; omega
  rw [h0, h1]

/-- An index of the array is in point t's block iff each coordinate is in the block's range on its axis. -/
theorem mem_blk (t : Fin cfg10.N) (i : S100000x64.Idx) :
    i ∈ ((cfg10.win 2).blk t).view.set ↔ ∀ a : Fin 2, win10_2.index t a * S20000x64.size a ≤ (i a).val ∧ (i a).val < win10_2.index t a * S20000x64.size a + S20000x64.size a := by
  show i ∈ ((View.whole main_v110).slice (win10_2.rect t)).set ↔ _
  rw [View.set_slice_whole, Rect.mem_set_unit]
  exact Iff.rfl

/-- The array the region leaves: the product of the two arrays it found (row r lies in the block r / 20000). -/
theorem final (c : Dev nD) : (dat10 V c).arrAt 2 cfg10.N = G (V c main_v109) (V c main_arg12) :=
  (dat10 V c).arrAt_eq_of_cover 2 (G (V c main_v109) (V c main_arg12)) (fun t _ => flushed_eq V c t) fun i => by
    have hi0 : (i 0).val < 100000 := (i 0).isLt
    have hi1 : (i 1).val < 64 := (i 1).isLt
    have hN : cfg10.N = 5 := N_10
    let t : Fin cfg10.N := ⟨(i 0).val / 20000, by rw [hN]; omega⟩
    obtain ⟨e0, e1, e2, e3, e4, e5⟩ := idx_facts t
    refine ⟨t, flush10_2 t, ?_⟩
    rw [mem_blk]
    intro a
    match a with
    | ⟨0, _⟩ => show win10_2.index t (0 : Fin 2) * 20000 ≤ (i 0).val ∧ (i 0).val < win10_2.index t (0 : Fin 2) * 20000 + 20000; rw [e4]; show (i 0).val / 20000 * 20000 ≤ (i 0).val ∧ (i 0).val < (i 0).val / 20000 * 20000 + 20000; omega
    | ⟨1, _⟩ => show win10_2.index t (1 : Fin 2) * 64 ≤ (i 1).val ∧ (i 1).val < win10_2.index t (1 : Fin 2) * 64 + 64; rw [e5]; omega

end Cert.KernelIdeal.Lin10

end
-- ==== Proof.Post11.lean ====
/-
  The sixth bias pass: rows 20000 t … 20000 t + 19999 of the aggregated features, plus the bias row repeated down the rows.
  The five row blocks tile the 100000 rows, so the array the region leaves is that pointwise expression of the two
  arrays it found.
-/
import proofs.«141385_j45268955300493_1_alg».proof.Proof.Gen.KernelIdeal.Frame
import proofs.«141385_j45268955300493_1_alg».proof.Proof.Gen.ReferenceIdeal.Read
import proofs.«141385_j45268955300493_1_alg».proof.Proof.LibRowsProduct
import proofs.«141385_j45268955300493_1_alg».proof.Proof.LibHostBroadcast
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Post11

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A 100000 × 64 array plus a 1 × 64 row repeated down the rows, as the host spells it. -/
abbrev G (A : FVec Ideal S100000x64 .f32) (B : FVec Ideal S1x64 .f32) : FVec Ideal S100000x64 .f32 :=
  addf A (broadcastInDim S100000x64 ![0, 1] Cert.ReferenceIdeal.Gen.bcast_S1x64_S100000x64_0_1 B)

/-- The host's spelling read at an entry. -/
theorem G_apply (A : FVec Ideal S100000x64 .f32) (B : FVec Ideal S1x64 .f32) (p : Fin 100000) (q : Fin 64) :
    G A B (ix2 p q) = A (ix2 p q) + B (ix2 (0 : Fin 1) q) := by
  show A (ix2 p q) + broadcastInDim S100000x64 ![0, 1] _ B (ix2 p q) = _
  rw [broadcastInDim_apply ![0, 1] _ B (ix2 p q) (ix2 (0 : Fin 1) q) (fun ax => by
    match ax with
    | ⟨0, _⟩ => show (0 : ℕ) = if (1 : ℕ) = 1 then 0 else p.val; rw [if_pos rfl]
    | ⟨1, _⟩ => show q.val = if (64 : ℕ) = 1 then 0 else q.val; rw [if_neg (by decide)])]

/-- One row block of the pass at an entry. -/
theorem pay_apply (x0 : Vec Ideal S20000x64 .f32) (x1 : Vec Ideal S1x64 .f32) (p : Fin 20000) (q : Fin 64) :
    k11_pay1 x0 x1 (ix2 p q) = x0 (ix2 p q) + x1 (ix2 (0 : Fin 1) q) := by
  unfold k11_pay1
  simp only [shapeCast_self]
  show x0 (ix2 p q) + broadcastTo S20000x64 x1 _ (ix2 p q) = _
  rw [Cert.RowsProduct.broadcastTo_1n_an_apply]

/-- Where the blocks sit: at grid point t the row windows are at block row t, the bias window at the origin. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What grid point t writes back is block t of the pointwise expression. -/
theorem flushed_eq (c : Dev nD) (t : Fin cfg11.N) :
    (dat11 V c).flushed 2 t = ((cfg11.win 2).blk t).view.read (Elt Ideal) (G (V c main_v123) (V c main_v124)) := by
  show (cfg11.win 2).cut (grid11.coords t) ((dat11 V c).after 2 t) = _
  rw [after11_2]
  unfold out11_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  show k11_pay1 (iblk11 V c 0 t) (iblk11 V c 1 t) (ix2 p q) = G (V c main_v123) (V c main_v124) (((cfg11.win 2).blk t).view.emb (ix2 p q))
  have hN : t.val < 5 := lt_of_lt_of_eq t.isLt (show cfg11.N = 5 from N_11)
  refine (pay_apply _ _ p q).trans ?_
  have hemb : ((cfg11.win 2).blk t).view.emb (ix2 p q) = ix2 (⟨t.val * 20000 + p.val, by omega⟩ : Fin 100000) q := by
    funext a; apply Fin.ext
    match a with
    | ⟨0, _⟩ => show win11_2.index t (0 : Fin 2) * 20000 + 1 * p.val = t.val * 20000 + p.val; rw [e4]; omega
    | ⟨1, _⟩ => show win11_2.index t (1 : Fin 2) * 64 + 1 * q.val = q.val; rw [e5]; omega
  rw [hemb]
  refine Eq.trans ?_ (G_apply (V c main_v123) (V c main_v124) _ q).symm
  have h0 : iblk11 V c 0 t (ix2 p q) = V c main_v123 (ix2 (⟨t.val * 20000 + p.val, by omega⟩ : Fin 100000) q) := by
    unfold iblk11
    rw [View.read_apply]
    show V c main_v123 _ = _
    refine congrArg (V c main_v123) ?_
    funext a; apply Fin.ext
    match a with
    | ⟨0, _⟩ => show win11_0.index t (0 : Fin 2) * 20000 + 1 * p.val = t.val * 20000 + p.val; rw [e0]; omega
    | ⟨1, _⟩ => show win11_0.index t (1 : Fin 2) * 64 + 1 * q.val = q.val; rw [e1]; omega
  have h1 : iblk11 V c 1 t (ix2 (0 : Fin 1) q) = V c main_v124 (ix2 (0 : Fin 1) q) := by
    unfold iblk11
    rw [View.read_apply]
    show V c main_v124 _ = _
    refine congrArg (V c main_v124) ?_
    funext a; apply Fin.ext
    match a with
    | ⟨0, _⟩ => show win11_1.index t (0 : Fin 2) * 1 + 1 * 0 = 0; rw [e2]
    | ⟨1, _⟩ => show win11_1.index t (1 : Fin 2) * 64 + 1 * q.val = q.val; rw [e3]; omega
  rw [h0, h1]

/-- An index of the array is in point t's block iff each coordinate is in the block's range on its axis. -/
theorem mem_blk (t : Fin cfg11.N) (i : S100000x64.Idx) :
    i ∈ ((cfg11.win 2).blk t).view.set ↔ ∀ a : Fin 2, win11_2.index t a * S20000x64.size a ≤ (i a).val ∧ (i a).val < win11_2.index t a * S20000x64.size a + S20000x64.size a := by
  show i ∈ ((View.whole main_v125).slice (win11_2.rect t)).set ↔ _
  rw [View.set_slice_whole, Rect.mem_set_unit]
  exact Iff.rfl

/-- The array the region leaves: the pointwise expression of the two arrays it found (row r lies in the block r / 20000). -/
theorem final (c : Dev nD) : (dat11 V c).arrAt 2 cfg11.N = G (V c main_v123) (V c main_v124) :=
  (dat11 V c).arrAt_eq_of_cover 2 (G (V c main_v123) (V c main_v124)) (fun t _ => flushed_eq V c t) fun i => by
    have hi0 : (i 0).val < 100000 := (i 0).isLt
    have hi1 : (i 1).val < 64 := (i 1).isLt
    have hN : cfg11.N = 5 := N_11
    let t : Fin cfg11.N := ⟨(i 0).val / 20000, by rw [hN]; omega⟩
    obtain ⟨e0, e1, e2, e3, e4, e5⟩ := idx_facts t
    refine ⟨t, flush11_2 t, ?_⟩
    rw [mem_blk]
    intro a
    match a with
    | ⟨0, _⟩ => show win11_2.index t (0 : Fin 2) * 20000 ≤ (i 0).val ∧ (i 0).val < win11_2.index t (0 : Fin 2) * 20000 + 20000; rw [e4]; show (i 0).val / 20000 * 20000 ≤ (i 0).val ∧ (i 0).val < (i 0).val / 20000 * 20000 + 20000; omega
    | ⟨1, _⟩ => show win11_2.index t (1 : Fin 2) * 64 ≤ (i 1).val ∧ (i 1).val < win11_2.index t (1 : Fin 2) * 64 + 64; rw [e5]; omega

end Cert.KernelIdeal.Post11

end
-- ==== Proof.Layer6.lean ====
/-
  The sixth layer, boundary by boundary.  Its first region multiplies the layer before's output by the layer's weight
  matrix: the reference's product of its own hidden layer, which that output is.  The stretch of host operations then
  gathers the product's rows along the edges, scales them by the edge weights and adds them into their targets — the
  reference's operations on the same edge arrays, which no boundary since the first has changed — and re-lays the
  bias as a row.  The second region adds the bias row: the reference's broadcast and sum.  So the layer's output array holds the reference's sixth layer.
-/
import proofs.«141385_j45268955300493_1_alg».proof.Proof.Layer5
import proofs.«141385_j45268955300493_1_alg».proof.Proof.Lin10
import proofs.«141385_j45268955300493_1_alg».proof.Proof.Post11
import proofs.«141385_j45268955300493_1_alg».proof.Proof.Gen.ReferenceIdeal.Read
import Idealize.ShloMosaic.Lib.StableHlo.Run

noncomputable section

namespace Cert.KernelIdeal.Layer6

open Cert.KernelIdeal Cert.KernelIdeal.Gen Cert.KernelIdeal.Keep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's product is the reference's. -/
theorem lin6 : W17 m ρ c (Proc.devRef .tc main_v110) = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W17_arr m ρ c 2).trans (Lin10.final (V16 m ρ) c)).trans ?_
  have ea : V16 m ρ c main_v109 = _ := Layer5.out5 m ρ c
  have eb : V16 m ρ c main_arg12 = (m ((c : Thread nD τ).loc main_arg12)) := ((carry16 m ρ c main_arg12 (by decide)).trans (launch m ρ c main_arg12 (by decide)))
  rw [ea, eb]
  rfl

/-- The stretch gathers, scales and adds along the edges as the reference does. -/
theorem agg6 : W18 m ρ c (Proc.devRef .tc main_v123) = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (Agg.agg_of11 (W17 m ρ c)).trans ?_
  rw [((carry17 m ρ c main_v3 (by decide)).trans (Layer1.src1 m ρ c)), ((carry17 m ρ c main_v7 (by decide)).trans (Layer1.dst1 m ρ c)), ((carry17 m ρ c main_v29 (by decide)).trans (Layer1.wgt1 m ρ c)), lin6 m ρ c]
  rfl

/-- The bias re-laid as a row is the reference's broadcast of it into a row. -/
theorem bias6 : W18 m ρ c (Proc.devRef .tc main_v124) = Cert.ReferenceIdeal.Read.val_main_v133 (F := Ideal) (m ((c : Thread nD τ).loc main_arg13)) := by
  refine (Agg.bias_of11 (W17 m ρ c)).trans ?_
  rw [((carry17 m ρ c main_arg13 (by decide)).trans (launch m ρ c main_arg13 (by decide)))]
  exact Cert.RowOfVector.shapeCast_eq_broadcastInDim _ _ _

/-- The layer's second region leaves the reference's sixth layer. -/
theorem out6 : W19 m ρ c (Proc.devRef .tc main_v125) = Cert.ReferenceIdeal.Read.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W19_arr m ρ c 2).trans (Post11.final (V18 m ρ) c)).trans ?_
  have ea : V18 m ρ c main_v123 = _ := agg6 m ρ c
  have eb : V18 m ρ c main_v124 = _ := bias6 m ρ c
  rw [ea, eb]
  rfl

end Cert.KernelIdeal.Layer6

end
-- ==== Proof.lean ====
/-
  The certificate of a six-layer graph autoencoder: each layer multiplies the node features by a weight matrix, gathers
  the product's rows along the edges, scales them by the symmetric degree normalisation, adds them into the edges' target
  rows, adds a bias, and (but for the third and the sixth layer) takes the maximum with zero.  The program under proof
  does the two dense steps of each layer — the product and the bias pass — in device regions over five blocks of 20000
  rows, and everything along the edges in host operations between them; the reference does all of it in host
  operations.

  On the extended reals the two are the same function of the arguments, and no finiteness is needed for that: the
  edge arrays are computed by the same operations from the same edge list; a region's product of row blocks is the
  host's product of the whole arrays, entry by entry one sum over the shared coordinate (the roundings to bf16 on the
  way in are the identity); the operations along the edges are the same operations applied to equal arrays; and the
  bias pass — a row re-laid from the bias vector, repeated down the rows, added, then rectified — is the host's two
  broadcasts, sum and maximum with zero.  The modules under Proof/ prove this boundary by boundary through the
  program; here the five claims are assembled.  The idealization rewrote nothing, so its claim is trivial; the
  frames of the two programs with regions are the generated ones, and the reference's is its generated run.
-/
import proofs.«141385_j45268955300493_1_alg».proof.Defs
import proofs.«141385_j45268955300493_1_alg».proof.Proof.Gen.Kernel
import proofs.«141385_j45268955300493_1_alg».proof.Proof.Gen.Kernel.Frame
import proofs.«141385_j45268955300493_1_alg».proof.Proof.Gen.KernelIdeal
import proofs.«141385_j45268955300493_1_alg».proof.Proof.Gen.KernelIdeal.Frame
import proofs.«141385_j45268955300493_1_alg».proof.Proof.Gen.ReferenceIdeal
import proofs.«141385_j45268955300493_1_alg».proof.Proof.Gen.ReferenceIdeal.Run
import proofs.«141385_j45268955300493_1_alg».proof.Proof.Gen.ReferenceIdeal.Read
import proofs.«141385_j45268955300493_1_alg».proof.Proof.Gen.Pre_finite_inputs
import proofs.«141385_j45268955300493_1_alg».proof.Proof.KRun
import proofs.«141385_j45268955300493_1_alg».proof.Proof.Layer6
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the reconstruction at the reference's sixth layer and the code at its third, as functions
    of arguments that agree. -/
theorem algebraic : Cert.algebraic_KernelIdeal_ReferenceIdeal := by
  intro m ρ m' ρ' _ hagree
  refine ⟨fun c => Cert.ReferenceIdeal.Read.val_main_v135 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.KRun.run_named (F := Ideal) m ρ)
    obtain ⟨h0, h1, hrest⟩ := h c
    exact ⟨h0.trans (Cert.KernelIdeal.Layer6.out6 m ρ c),
      h1.trans ((Cert.KernelIdeal.Keep.carryZ19 m ρ c).trans (Cert.KernelIdeal.Layer3.out3 m ρ c)), hrest⟩
  · refine (θ_run Cert.ReferenceIdeal.defs _ _).mono (fun r h c => ?_) (Cert.ReferenceIdeal.Value.run (F := Ideal) m' ρ')
    obtain ⟨h0, h1, hrest⟩ := h c
    obtain ⟨a0, a1, a2, a3, a4, a5, a6, a7, a8, a9, a10, a11, a12, a13⟩ := hagree c
    refine ⟨h0.trans ?_, h1.trans ?_, hrest⟩
    · rw [Cert.ReferenceIdeal.Read.val_main_v135_eq, a0, a1, a2, a3, a4, a5, a6, a7, a8, a9, a10, a11, a12, a13]
    · rw [Cert.ReferenceIdeal.Read.val_main_v82_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
